-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200x400 : Shape := ⟨3, ![1024, 200, 400]⟩
abbrev S1024x200x128 : Shape := ⟨3, ![1024, 200, 128]⟩
abbrev S384x256 : Shape := ⟨2, ![384, 256]⟩
abbrev S384x128 : Shape := ⟨2, ![384, 128]⟩
abbrev S384 : Shape := ⟨1, ![384]⟩
abbrev S128 : Shape := ⟨1, ![128]⟩
abbrev S128x128 : Shape := ⟨2, ![128, 128]⟩
abbrev S_ : Shape := ⟨0, ![]⟩

class Facts : Prop where
  bcast_S_S1024x200x400 : S_.BroadcastsInDim S1024x200x400 (![] : Fin 0 → Fin S1024x200x400.rank)
  reducesTo_S1024x200x400_S_d0_1_2 : S1024x200x400.ReducesTo [0, 1, 2] S_
  h_S_ : 0 < S_.numel
  bcast_S_S1024x200x128 : S_.BroadcastsInDim S1024x200x128 (![] : Fin 0 → Fin S1024x200x128.rank)
  reducesTo_S1024x200x128_S_d0_1_2 : S1024x200x128.ReducesTo [0, 1, 2] S_
  bcast_S_S384x256 : S_.BroadcastsInDim S384x256 (![] : Fin 0 → Fin S384x256.rank)
  reducesTo_S384x256_S_d0_1 : S384x256.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S384 .f32) (main_arg5 : FVec F S384 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1024x200x400 .f32) (main_arg1 : FVec F S1024x200x128 .f32) (main_arg2 : FVec F S384x256 .f32) (main_arg3 : FVec F S384x128 .f32) (main_arg4 : FVec F S384 .f32) (main_arg5 : FVec F S384 .f32) (main_arg6 : FVec F S128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S1024x200x400 .f32 := Host.absf main_arg0
  let main_cst : FVec F S_ .f32 := constant S_ .f32 0x7F800000#32
  let main_v1 : FVec F S1024x200x400 .f32 := broadcastInDim S1024x200x400 ![] bcast_S_S1024x200x400 main_cst
  let main_v2 : IVec S1024x200x400 1 := cmpf .olt main_v0 main_v1
  let main_c : IVec S_ 1 := constantI S_ 1 1#1
  let main_v3 : IVec S_ 1 := (fun x v => Host.reduce IntOp.andi x v reducesTo_S1024x200x400_S_d0_1_2 h_S_) main_v2 main_c
  let main_v4 : FVec F S1024x200x128 .f32 := Host.absf main_arg1
  let main_cst_0 : FVec F S_ .f32 := constant S_ .f32 0x7F800000#32
  let main_v5 : FVec F S1024x200x128 .f32 := broadcastInDim S1024x200x128 ![] bcast_S_S1024x200x128 main_cst_0
  let main_v6 : IVec S1024x200x128 1 := cmpf .olt main_v4 main_v5
  let main_c_1 : IVec S_ 1 := constantI S_ 1 1#1
  let main_v7 : IVec S_ 1 := (fun x v => Host.reduce IntOp.andi x v reducesTo_S1024x200x128_S_d0_1_2 h_S_) main_v6 main_c_1
  let main_v8 : IVec S_ 1 := andi main_v3 main_v7
  let main_v9 : FVec F S384x256 .f32 := Host.absf main_arg2
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_arg7 main_arg8 main_arg9 main_arg10 main_arg11 main_v13 main_v16
-- ==== Kernel.lean ====
abbrev S1024x200x400 : Shape := ⟨3, ![1024, 200, 400]⟩
abbrev S1024x200x128 : Shape := ⟨3, ![1024, 200, 128]⟩
abbrev S384x256 : Shape := ⟨2, ![384, 256]⟩
abbrev S384x128 : Shape := ⟨2, ![384, 128]⟩
abbrev S384 : Shape := ⟨1, ![384]⟩
abbrev S128 : Shape := ⟨1, ![128]⟩
abbrev S128x128 : Shape := ⟨2, ![128, 128]⟩
abbrev S1024x200x200 : Shape := ⟨3, ![1024, 200, 200]⟩
abbrev S1x384 : Shape := ⟨2, ![1, 384]⟩
abbrev S1x128 : Shape := ⟨2, ![1, 128]⟩
abbrev S8x200x200 : Shape := ⟨3, ![8, 200, 200]⟩
abbrev S8x200x128 : Shape := ⟨3, ![8, 200, 128]⟩
abbrev S1600x128 : Shape := ⟨2, ![1600, 128]⟩
abbrev S1600x256 : Shape := ⟨2, ![1600, 256]⟩
abbrev S1600x384 : Shape := ⟨2, ![1600, 384]⟩

abbrev nBuf : Space → Nat
  | .hbm => 21
  | .vmem => 18
  | .smem => 0
  | _ => 0

abbrev bufTy : (tb : Table) → Fin (tcTables nBuf tb) → BufTy
  | .hbm, ⟨0, _⟩ => ⟨S1024x200x400, .f32⟩
  | .hbm, ⟨1, _⟩ => ⟨S1024x200x128, .f32⟩
  | .hbm, ⟨2, _⟩ => ⟨S384x256, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1024x200x200, .f32⟩
  | .hbm, ⟨13, _⟩ => ⟨S1024x200x200, .f32⟩
  | .hbm, ⟨14, _⟩ => ⟨S1x384, .f32⟩
  | .hbm, ⟨15, _⟩ => ⟨S1x384, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1024x200x128, .f32⟩
  | .local _ .vmem, ⟨0, _⟩ => ⟨S8x200x200, .f32⟩
  | .local _ .vmem, ⟨1, _⟩ => ⟨S8x200x200, .f32⟩
  | .local _ .vmem, ⟨2, _⟩ => ⟨S8x200x200, .f32⟩
  | .local _ .vmem, ⟨3, _⟩ => ⟨S8x200x200, .f32⟩
  | .local _ .vmem, ⟨4, _⟩ => ⟨S8x200x128, .f32⟩
  | .local _ .vmem, ⟨5, _⟩ => ⟨S8x200x128, .f32⟩
  | .local _ .vmem, ⟨6, _⟩ => ⟨S384x256, .f32⟩
  | .local _ .vmem, ⟨7, _⟩ => ⟨S384x128, .f32⟩
  | .local _ .vmem, ⟨8, _⟩ => ⟨S1x384, .f32⟩
  | .local _ .vmem, ⟨9, _⟩ => ⟨S1x384, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S8x200x128, .f32⟩
  | .local _ .vmem, ⟨17, _⟩ => ⟨S8x200x128, .f32⟩
  | _, _ => ⟨S1024x200x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x200x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x200x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x200x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S1024x200x400_S1024x200x200_0_0_0 : S1024x200x400.Slices ![0, 0, 0] S1024x200x200
  slices_S1024x200x400_S1024x200x200_0_0_200 : S1024x200x400.Slices ![0, 0, 200] S1024x200x200
  shapeCasts_S384_S1x384 : S384.ShapeCasts S1x384
  shapeCasts_S128_S1x128 : S128.ShapeCasts S1x128
  inb_S8x200x128_S8x200x128_0_0_0 : ∀ a, (![0, 0, 0] : Fin 3 → Nat) a + S8x200x128.size a ≤ S8x200x128.size a
  h_S8x200x128 : 0 < S8x200x128.numel
  inb_S8x200x200_S8x200x200_0_0_0 : ∀ a, (![0, 0, 0] : Fin 3 → Nat) a + S8x200x200.size a ≤ S8x200x200.size a
  h_S8x200x200 : 0 < S8x200x200.numel
  shapeCasts_S8x200x200_S8x200x200 : S8x200x200.ShapeCasts S8x200x200
  shapeCasts_S8x200x128_S1600x128 : S8x200x128.ShapeCasts S1600x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1600x128 : S1x128.Broadcasts S1600x128
  shapeCasts_S1600x128_S8x200x128 : S1600x128.ShapeCasts S8x200x128
  concatenates_S1600x128_S1600x128_S1600x256_d1 : Shape.Concatenates [S1600x128, S1600x128] S1600x256 1
  inb_S384x256_S384x256_0_0 : ∀ a, (![0, 0] : Fin 2 → Nat) a + S384x256.size a ≤ S384x256.size a
  h_S384x256 : 0 < S384x256.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1600x384 : S1x384.Broadcasts S1600x384
  inb_S384x128_S384x128_0_0 : ∀ a, (![0, 0] : Fin 2 → Nat) a + S384x128.size a ≤ S384x128.size a
  h_S384x128 : 0 < S384x128.numel
  slices_S1600x384_o0_0_S1600x128 : S1600x384.Slices ![0, 0] S1600x128
  slices_S1600x384_o0_128_S1600x128 : S1600x384.Slices ![0, 128] S1600x128
  slices_S1600x384_o0_256_S1600x128 : S1600x384.Slices ![0, 256] S1600x128
  dot_S1600x128_S128x128_S1600x128_1_1_0_0_n_n_wf : DotDims.WF S1600x128 S128x128 S1600x128 [1] [1] [0] [0] [] []
  dot_S8x200x200_S8x200x128_S8x200x128_2_1_1_2_0_0_wf : DotDims.WF S8x200x200 S8x200x128 S8x200x128 [2] [1] [1] [2] [0] [0]
  dot_S1600x256_S384x256_S1600x384_1_1_0_0_n_n_wf : DotDims.WF S1600x256 S384x256 S1600x384 [1] [1] [0] [0] [] []
  dot_S1600x128_S384x128_S1600x384_1_1_0_0_n_n_wf : DotDims.WF S1600x128 S384x128 S1600x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x200x200.size a ≤ S1024x200x200.size a
  hwx0_0 : ∀ i : grid0.Coords, EltTy.bits .f32 = 32 ∨ (Rect.block (s := S1024x200x200) S8x200x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x200x200.size a ≤ S1024x200x200.size a
  hwx0_1 : ∀ i : grid0.Coords, EltTy.bits .f32 = 32 ∨ (Rect.block (s := S1024x200x200) S8x200x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x200x128.size a ≤ S1024x200x128.size a
  hwx0_2 : ∀ i : grid0.Coords, EltTy.bits .f32 = 32 ∨ (Rect.block (s := S1024x200x128) S8x200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .f32 = 32 ∨ (Rect.block (s := S384x256) S384x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x128.size a ≤ S384x128.size a
  hwx0_4 : ∀ i : grid0.Coords, EltTy.bits .f32 = 32 ∨ (Rect.block (s := S384x128) S384x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x200x128.size a ≤ S1024x200x128.size a
  hwx0_13 : ∀ i : grid0.Coords, EltTy.bits .f32 = 32 ∨ (Rect.block (s := S1024x200x128) S8x200x128.size (cc0_transform_13 i) (hinb0_13 i)).WholeWords (EltTy.packing .f32)

variable [Facts₀]

def dot_S1600x128_S128x128_S1600x128_1_1_0_0_n_n : DotDims S1600x128 S128x128 S1600x128 where
  lhsContracting := [1]
  rhsContracting := [1]
  lhsNonContracting := [0]
  rhsNonContracting := [0]
  lhsBatch := []
  rhsBatch := []
  wf := dot_S1600x128_S128x128_S1600x128_1_1_0_0_n_n_wf
def dot_S8x200x200_S8x200x128_S8x200x128_2_1_1_2_0_0 : DotDims S8x200x200 S8x200x128 S8x200x128 where
  lhsContracting := [2]
  rhsContracting := [1]
  lhsNonContracting := [1]
  rhsNonContracting := [2]
  lhsBatch := [0]
  rhsBatch := [0]
  wf := dot_S8x200x200_S8x200x128_S8x200x128_2_1_1_2_0_0_wf
def dot_S1600x256_S384x256_S1600x384_1_1_0_0_n_n : DotDims S1600x256 S384x256 S1600x384 where
  lhsContracting := [1]
  rhsContracting := [1]
  lhsNonContracting := [0]
  rhsNonContracting := [0]
  lhsBatch := []
  rhsBatch := []
  wf := dot_S1600x256_S384x256_S1600x384_1_1_0_0_n_n_wf
def dot_S1600x128_S384x128_S1600x384_1_1_0_0_n_n : DotDims S1600x128 S384x128 S1600x384 where
  lhsContracting := [1]
  rhsContracting := [1]
  lhsNonContracting := [0]
  rhsNonContracting := [0]
  lhsBatch := []
  rhsBatch := []
  wf := dot_S1600x128_S384x128_S1600x384_1_1_0_0_n_n_wf

abbrev win0_0 : Pipeline.Window sig grid0 :=
  Pipeline.Window.ofSpec (Memref.whole main_v0) S8x200x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x200x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S384x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S8x200x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1024x200x400 : Shape := ⟨3, ![1024, 200, 400]⟩
abbrev S1024x200x128 : Shape := ⟨3, ![1024, 200, 128]⟩
abbrev S384x256 : Shape := ⟨2, ![384, 256]⟩
abbrev S384x128 : Shape := ⟨2, ![384, 128]⟩
abbrev S384 : Shape := ⟨1, ![384]⟩
abbrev S128 : Shape := ⟨1, ![128]⟩
abbrev S128x128 : Shape := ⟨2, ![128, 128]⟩
abbrev S1024x200x200 : Shape := ⟨3, ![1024, 200, 200]⟩
abbrev S1x1x128 : Shape := ⟨3, ![1, 1, 128]⟩
abbrev S1024x200x256 : Shape := ⟨3, ![1024, 200, 256]⟩
abbrev S1024x200x384 : Shape := ⟨3, ![1024, 200, 384]⟩
abbrev S1x1x384 : Shape := ⟨3, ![1, 1, 384]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S1024x200x400, .f32⟩
  | .hbm, ⟨1, _⟩ => ⟨S1024x200x128, .f32⟩
  | .hbm, ⟨2, _⟩ => ⟨S384x256, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1024x200x200, .f32⟩
  | .hbm, ⟨13, _⟩ => ⟨S1024x200x200, .f32⟩
  | .hbm, ⟨14, _⟩ => ⟨S1024x200x128, .f32⟩
  | .hbm, ⟨15, _⟩ => ⟨S1x1x128, .f32⟩
  | .hbm, ⟨16, _⟩ => ⟨S1024x200x128, .f32⟩
  | .hbm, ⟨17, _⟩ => ⟨S1024x200x128, .f32⟩
  | .hbm, ⟨18, _⟩ => ⟨S1024x200x128, .f32⟩
  | .hbm, ⟨19, _⟩ => ⟨S1x1x128, .f32⟩
  | .hbm, ⟨20, _⟩ => ⟨S1024x200x128, .f32⟩
  | .hbm, ⟨21, _⟩ => ⟨S1024x200x128, .f32⟩
  | .hbm, ⟨22, _⟩ => ⟨S1024x200x128, .f32⟩
  | .hbm, ⟨23, _⟩ => ⟨S1x1x128, .f32⟩
  | .hbm, ⟨24, _⟩ => ⟨S1024x200x128, .f32⟩
  | .hbm, ⟨25, _⟩ => ⟨S1024x200x128, .f32⟩
  | .hbm, ⟨26, _⟩ => ⟨S1024x200x128, .f32⟩
  | .hbm, ⟨27, _⟩ => ⟨S1x1x128, .f32⟩
  | .hbm, ⟨28, _⟩ => ⟨S1024x200x128, .f32⟩
  | .hbm, ⟨29, _⟩ => ⟨S1024x200x128, .f32⟩
  | .hbm, ⟨30, _⟩ => ⟨S1024x200x256, .f32⟩
  | .hbm, ⟨31, _⟩ => ⟨S1024x200x384, .f32⟩
  | .hbm, ⟨32, _⟩ => ⟨S1x1x384, .f32⟩
  | .hbm, ⟨33, _⟩ => ⟨S1024x200x384, .f32⟩
  | .hbm, ⟨34, _⟩ => ⟨S1024x200x384, .f32⟩
  | .hbm, ⟨35, _⟩ => ⟨S1024x200x384, .f32⟩
  | .hbm, ⟨36, _⟩ => ⟨S1x1x384, .f32⟩
  | .hbm, ⟨37, _⟩ => ⟨S1024x200x384, .f32⟩
  | .hbm, ⟨38, _⟩ => ⟨S1024x200x384, .f32⟩
  | .hbm, ⟨39, _⟩ => ⟨S1024x200x128, .f32⟩
  | .hbm, ⟨40, _⟩ => ⟨S1024x200x128, .f32⟩
  | .hbm, ⟨41, _⟩ => ⟨S1024x200x128, .f32⟩
  | .hbm, ⟨42, _⟩ => ⟨S1024x200x128, .f32⟩
  | .hbm, ⟨43, _⟩ => ⟨S1024x200x128, .f32⟩
  | .hbm, ⟨44, _⟩ => ⟨S1024x200x128, .f32⟩
  | .hbm, ⟨45, _⟩ => ⟨S1024x200x128, .f32⟩
  | .hbm, ⟨46, _⟩ => ⟨S1024x200x128, .f32⟩
  | .hbm, ⟨47, _⟩ => ⟨S1024x200x128, .f32⟩
  | .hbm, ⟨48, _⟩ => ⟨S_, .f32⟩
  | .hbm, ⟨49, _⟩ => ⟨S1024x200x128, .f32⟩
  | .hbm, ⟨50, _⟩ => ⟨S1024x200x128, .f32⟩
  | .hbm, ⟨51, _⟩ => ⟨S_, .f32⟩
  | .hbm, ⟨52, _⟩ => ⟨S1024x200x128, .f32⟩
  | .hbm, ⟨53, _⟩ => ⟨S1024x200x128, .f32⟩
  | .hbm, ⟨54, _⟩ => ⟨S1024x200x128, .f32⟩
  | .hbm, ⟨55, _⟩ => ⟨S1024x200x128, .f32⟩
  | .hbm, ⟨56, _⟩ => ⟨S1024x200x128, .f32⟩
  | .hbm, ⟨57, _⟩ => ⟨S_, .f32⟩
  | .hbm, ⟨58, _⟩ => ⟨S1024x200x128, .f32⟩
  | .hbm, ⟨59, _⟩ => ⟨S1024x200x128, .f32⟩
  | .hbm, ⟨60, _⟩ => ⟨S_, .f32⟩
  | .hbm, ⟨61, _⟩ => ⟨S1024x200x128, .f32⟩
  | .hbm, ⟨62, _⟩ => ⟨S1024x200x128, .f32⟩
  | .hbm, ⟨63, _⟩ => ⟨S1024x200x128, .f32⟩
  | .hbm, ⟨64, _⟩ => ⟨S1024x200x128, .f32⟩
  | .hbm, ⟨65, _⟩ => ⟨S1024x200x128, .f32⟩
  | .hbm, ⟨66, _⟩ => ⟨S1024x200x128, .f32⟩
  | .hbm, ⟨67, _⟩ => ⟨S1024x200x128, .f32⟩
  | .hbm, ⟨68, _⟩ => ⟨S1024x200x128, .f32⟩
  | _, _ => ⟨S1024x200x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_v36 : Ref sig .tc := ⟨.hbm, 49, rfl⟩
abbrev main_v37 : Ref sig .tc := ⟨.hbm, 50, rfl⟩
abbrev main_cst_0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_1 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  slices_S1024x200x400_S1024x200x200_0_0_0 : S1024x200x400.Slices ![0, 0, 0] S1024x200x200
  slices_S1024x200x400_S1024x200x200_0_0_200 : S1024x200x400.Slices ![0, 0, 200] S1024x200x200
  bcast_S128_S1x1x128_2 : S128.BroadcastsInDim S1x1x128 (![2] : Fin 1 → Fin S1x1x128.rank)
  bcast_S1x1x128_S1024x200x128_0_1_2 : S1x1x128.BroadcastsInDim S1024x200x128 (![0, 1, 2] : Fin 3 → Fin S1024x200x128.rank)
  concatenates_S1024x200x128_S1024x200x128_S1024x200x256_d2 : Shape.Concatenates [S1024x200x128, S1024x200x128] S1024x200x256 2
  bcast_S384_S1x1x384_2 : S384.BroadcastsInDim S1x1x384 (![2] : Fin 1 → Fin S1x1x384.rank)
  bcast_S1x1x384_S1024x200x384_0_1_2 : S1x1x384.BroadcastsInDim S1024x200x384 (![0, 1, 2] : Fin 3 → Fin S1024x200x384.rank)
  slices_S1024x200x384_S1024x200x128_0_0_0 : S1024x200x384.Slices ![0, 0, 0] S1024x200x128
  slices_S1024x200x384_S1024x200x128_0_0_128 : S1024x200x384.Slices ![0, 0, 128] S1024x200x128
  slices_S1024x200x384_S1024x200x128_0_0_256 : S1024x200x384.Slices ![0, 0, 256] S1024x200x128
  bcast_S_S1024x200x128 : S_.BroadcastsInDim S1024x200x128 (![] : Fin 0 → Fin S1024x200x128.rank)
  dot_S1024x200x128_S128x128_S1024x200x128_2_1_01_0_n_n_wf : DotDims.WF S1024x200x128 S128x128 S1024x200x128 [2] [1] [0, 1] [0] [] []
  dot_S1024x200x200_S1024x200x128_S1024x200x128_2_1_1_2_0_0_wf : DotDims.WF S1024x200x200 S1024x200x128 S1024x200x128 [2] [1] [1] [2] [0] [0]
  dot_S1024x200x256_S384x256_S1024x200x384_2_1_01_0_n_n_wf : DotDims.WF S1024x200x256 S384x256 S1024x200x384 [2] [1] [0, 1] [0] [] []
  dot_S1024x200x128_S384x128_S1024x200x384_2_1_01_0_n_n_wf : DotDims.WF S1024x200x128 S384x128 S1024x200x384 [2] [1] [0, 1] [0] [] []

variable [Facts₀]

def dot_S1024x200x128_S128x128_S1024x200x128_2_1_01_0_n_n : DotDims S1024x200x128 S128x128 S1024x200x128 where
  lhsContracting := [2]
  rhsContracting := [1]
  lhsNonContracting := [0, 1]
  rhsNonContracting := [0]
  lhsBatch := []
  rhsBatch := []
  wf := dot_S1024x200x128_S128x128_S1024x200x128_2_1_01_0_n_n_wf
def dot_S1024x200x200_S1024x200x128_S1024x200x128_2_1_1_2_0_0 : DotDims S1024x200x200 S1024x200x128 S1024x200x128 where
  lhsContracting := [2]
  rhsContracting := [1]
  lhsNonContracting := [1]
  rhsNonContracting := [2]
  lhsBatch := [0]
  rhsBatch := [0]
  wf := dot_S1024x200x200_S1024x200x128_S1024x200x128_2_1_1_2_0_0_wf
def dot_S1024x200x256_S384x256_S1024x200x384_2_1_01_0_n_n : DotDims S1024x200x256 S384x256 S1024x200x384 where
  lhsContracting := [2]
  rhsContracting := [1]
  lhsNonContracting := [0, 1]
  rhsNonContracting := [0]
  lhsBatch := []
  rhsBatch := []
  wf := dot_S1024x200x256_S384x256_S1024x200x384_2_1_01_0_n_n_wf
def dot_S1024x200x128_S384x128_S1024x200x384_2_1_01_0_n_n : DotDims S1024x200x128 S384x128 S1024x200x384 where
  lhsContracting := [2]
  rhsContracting := [1]
  lhsNonContracting := [0, 1]
  rhsNonContracting := [0]
  lhsBatch := []
  rhsBatch := []
  wf := dot_S1024x200x128_S384x128_S1024x200x384_2_1_01_0_n_n_wf

class Facts : Prop extends Facts₀ where

variable [Facts]
-- ==== Proof.Cell.lean ====
/-
  One gated recurrent update of the node states of ONE graph, on the extended reals.

  A graph has 200 nodes, each with a state vector of length 128, and two 200 × 200 adjacency matrices (incoming and
  outgoing edges). Every node's state goes through two dense layers (the "edge features", one per direction); node `l`
  then receives, per direction, the sum over all nodes `m` of `adjacency l m` times node `m`'s edge features, plus a bias.
  The two messages are laid side by side (256 columns) and fed, with the old state, to a gated recurrent unit whose
  three gates sit in three consecutive runs of 128 columns of two dense layers with 384 outputs: with
  `gi = joined · w_ihᵀ + b_ih` and `gh = h · w_hhᵀ + b_hh`,
      r = σ(gi₀ + gh₀),  z = σ(gi₁ + gh₁),  n = tanh(gi₂ + r · gh₂),  new state = n + z · (h − n),
  σ the logistic function. Everything is a plain sum or a pointwise expression: no law beyond re-indexing is needed to
  recognise it in a program, so nothing here asks for finiteness.

  All extents are literal and every index is a `Fin` of a literal bound, so that the lemmas about this function match
  coordinates of array indices without unfolding.
-/
import Idealize.ShloMosaic.PureOps.Ideal
import Idealize.ShloMosaic.Lib.ValueIdx

noncomputable section

namespace Cert.Cell

open Idealize.ShloMosaic Idealize.ShloMosaic.ValueIdx

/-- The first, second and third run of 128 columns among 384. -/
abbrev lo (j : Fin 128) : Fin 384 := ⟨j.val, by omega⟩
abbrev mid (j : Fin 128) : Fin 384 := ⟨128 + j.val, by omega⟩
abbrev hi (j : Fin 128) : Fin 384 := ⟨256 + j.val, by omega⟩

section
variable (h : Fin 200 → Fin 128 → EReal) (ain aout : Fin 200 → Fin 200 → EReal)
  (wih : Fin 384 → Fin 256 → EReal) (whh : Fin 384 → Fin 128 → EReal) (bih bhh : Fin 384 → EReal)
  (biah boah : Fin 128 → EReal) (Wein : Fin 128 → Fin 128 → EReal) (bein : Fin 128 → EReal)
  (Weout : Fin 128 → Fin 128 → EReal) (beout : Fin 128 → EReal)

/-- Node `m`'s edge features: a dense layer (weights stored output-major) of its state. -/
def edge (W : Fin 128 → Fin 128 → EReal) (bias : Fin 128 → EReal) (m : Fin 200) (k : Fin 128) : EReal :=
  (∑ i : Fin 128, h m i * W k i) + bias k

/-- The message node `l` receives along one direction: its adjacency row against every node's edge features, plus a bias. -/
def msg (a : Fin 200 → Fin 200 → EReal) (e : Fin 200 → Fin 128 → EReal) (bias : Fin 128 → EReal) (l : Fin 200) (k : Fin 128) : EReal :=
  (∑ m : Fin 200, a l m * e m k) + bias k

/-- The two messages side by side: the incoming one in columns 0 … 127, the outgoing one in columns 128 … 255. -/
def joined (l : Fin 200) (c : Fin 256) : EReal :=
  if hc : c.val < 128 then msg ain (edge h Wein bein) biah l ⟨c.val, hc⟩
  else msg aout (edge h Weout beout) boah l ⟨c.val - 128, by omega⟩

/-- The unit's input-side pre-activations: a dense layer of the joined messages. -/
def gateIn (l : Fin 200) (g : Fin 384) : EReal :=
  (∑ c : Fin 256, joined h ain aout biah boah Wein bein Weout beout l c * wih g c) + bih g

/-- The unit's state-side pre-activations: a dense layer of the old state. -/
def gateHid (l : Fin 200) (g : Fin 384) : EReal :=
  (∑ i : Fin 128, h l i * whh g i) + bhh g

/-- The new state of node `l`, coordinate `j`. -/
def cell (l : Fin 200) (j : Fin 128) : EReal :=
  Ideal.tanh (gateIn h ain aout wih bih biah boah Wein bein Weout beout l (hi j)
      + Ideal.logistic (gateIn h ain aout wih bih biah boah Wein bein Weout beout l (lo j) + gateHid h whh bhh l (lo j))
        * gateHid h whh bhh l (hi j))
    + Ideal.logistic (gateIn h ain aout wih bih biah boah Wein bein Weout beout l (mid j) + gateHid h whh bhh l (mid j))
      * (h l j - Ideal.tanh (gateIn h ain aout wih bih biah boah Wein bein Weout beout l (hi j)
          + Ideal.logistic (gateIn h ain aout wih bih biah boah Wein bein Weout beout l (lo j) + gateHid h whh bhh l (lo j))
            * gateHid h whh bhh l (hi j)))

end

/-! ## The whole batch: 1024 graphs, each updated by itself -/

/-- The columns 0 … 199 and 200 … 399 of a row of 400: the two adjacency matrices are stored side by side. -/
abbrev colIn (m : Fin 200) : Fin 400 := ⟨m.val, by omega⟩
abbrev colOut (m : Fin 200) : Fin 400 := ⟨200 + m.val, by omega⟩

/-- The updated states of the whole batch as ONE function of the argument arrays, read at graph `b`, node `l`,
    coordinate `j`: graph `b`'s update from its own slices of the adjacency array and the state array. -/
def batch (A : (⟨3, ![1024, 200, 400]⟩ : Shape).Idx → EReal) (H : (⟨3, ![1024, 200, 128]⟩ : Shape).Idx → EReal)
    (wih : (⟨2, ![384, 256]⟩ : Shape).Idx → EReal) (whh : (⟨2, ![384, 128]⟩ : Shape).Idx → EReal)
    (bih bhh : (⟨1, ![384]⟩ : Shape).Idx → EReal) (biah boah : (⟨1, ![128]⟩ : Shape).Idx → EReal)
    (Wein : (⟨2, ![128, 128]⟩ : Shape).Idx → EReal) (bein : (⟨1, ![128]⟩ : Shape).Idx → EReal)
    (Weout : (⟨2, ![128, 128]⟩ : Shape).Idx → EReal) (beout : (⟨1, ![128]⟩ : Shape).Idx → EReal)
    (b : Fin 1024) (l : Fin 200) (j : Fin 128) : EReal :=
  cell (fun l k => H (ix3 b l k)) (fun l m => A (ix3 b l (colIn m))) (fun l m => A (ix3 b l (colOut m)))
    (fun g c => wih (ix2 g c)) (fun g i => whh (ix2 g i)) (fun g => bih (ix1 g)) (fun g => bhh (ix1 g))
    (fun k => biah (ix1 k)) (fun k => boah (ix1 k)) (fun k i => Wein (ix2 k i)) (fun k => bein (ix1 k))
    (fun k i => Weout (ix2 k i)) (fun k => beout (ix1 k)) l j

/-- The same as an array: the function of an index. -/
def batchArr (A : (⟨3, ![1024, 200, 400]⟩ : Shape).Idx → EReal) (H : (⟨3, ![1024, 200, 128]⟩ : Shape).Idx → EReal)
    (wih : (⟨2, ![384, 256]⟩ : Shape).Idx → EReal) (whh : (⟨2, ![384, 128]⟩ : Shape).Idx → EReal)
    (bih bhh : (⟨1, ![384]⟩ : Shape).Idx → EReal) (biah boah : (⟨1, ![128]⟩ : Shape).Idx → EReal)
    (Wein : (⟨2, ![128, 128]⟩ : Shape).Idx → EReal) (bein : (⟨1, ![128]⟩ : Shape).Idx → EReal)
    (Weout : (⟨2, ![128, 128]⟩ : Shape).Idx → EReal) (beout : (⟨1, ![128]⟩ : Shape).Idx → EReal) :
    (⟨3, ![1024, 200, 128]⟩ : Shape).Idx → EReal :=
  fun i => batch A H wih whh bih bhh biah boah Wein bein Weout beout (i 0) (i 1) (i 2)

theorem batchArr_ix3 (A : (⟨3, ![1024, 200, 400]⟩ : Shape).Idx → EReal) (H : (⟨3, ![1024, 200, 128]⟩ : Shape).Idx → EReal)
    (wih : (⟨2, ![384, 256]⟩ : Shape).Idx → EReal) (whh : (⟨2, ![384, 128]⟩ : Shape).Idx → EReal)
    (bih bhh : (⟨1, ![384]⟩ : Shape).Idx → EReal) (biah boah : (⟨1, ![128]⟩ : Shape).Idx → EReal)
    (Wein : (⟨2, ![128, 128]⟩ : Shape).Idx → EReal) (bein : (⟨1, ![128]⟩ : Shape).Idx → EReal)
    (Weout : (⟨2, ![128, 128]⟩ : Shape).Idx → EReal) (beout : (⟨1, ![128]⟩ : Shape).Idx → EReal)
    (b : Fin 1024) (l : Fin 200) (j : Fin 128) :
    batchArr A H wih whh bih bhh biah boah Wein bein Weout beout (ix3 b l j)
      = batch A H wih whh bih bhh biah boah Wein bein Weout beout b l j := rfl

/-- The f32 word of 1.0 is the extended real 1. -/
theorem ofBits_one_f32 : Ideal.ofBits .f32 0x3F800000#32 = 1 := by
  simp [Ideal.ofBits, Ideal.ieee, -EReal.coe_mul]; norm_num

end Cert.Cell

end
-- ==== Proof.RefCell.lean ====
/-
  The reference program computes the gated recurrent update of `Cert.Cell`.

  The program is read one stage at a time, always at an index written with literal coordinates (graph `b`, node `l`,
  column `k`): the two dense "edge feature" layers, the two adjacency products (each against one half of the columns of
  the adjacency array), the concatenation of the two messages, the two dense layers with 384 outputs, their three runs
  of 128 columns, and the pointwise gate arithmetic. Each stage lemma re-indexes a sum or a layout operation and quotes
  the stages below it; no law of arithmetic is used, the logistic function being by definition `1 / (1 + exp (-x))`.
-/
import proofs.«160301_j24060406792471_2_alg».proof.Proof.Gen.ReferenceIdeal.Read
import proofs.«160301_j24060406792471_2_alg».proof.Proof.Cell
import Idealize.ShloMosaic.Lib.Pipeline.Value
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.ValueIdx

/-- Two indices of rank 1, 2 or 3 agree when their coordinates have the same values. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

section Stages

variable (x0 : (⟨S1024x200x400, .f32⟩ : BufTy).Contents (Elt Ideal)) (x1 : (⟨S1024x200x128, .f32⟩ : BufTy).Contents (Elt Ideal)) (x2 : (⟨S384x256, .f32⟩ : BufTy).Contents (Elt Ideal)) (x3 : (⟨S384x128, .f32⟩ : BufTy).Contents (Elt Ideal))
  (x4 x5 : (⟨S384, .f32⟩ : BufTy).Contents (Elt Ideal)) (x6 x7 : (⟨S128, .f32⟩ : BufTy).Contents (Elt Ideal)) (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-! ## Edge features: a dense layer of every node's state -/

/-- Incoming direction: the layer's sum runs over the state's coordinate; its bias is broadcast over graphs and nodes. -/
theorem edgeIn_at (b : Fin 1024) (m : Fin 200) (k : Fin 128) :
    val_main_v5 (F := Ideal) x1 x8 x9 (ix3 b m k) = Cell.edge (fun l k => x1 (ix3 b l k)) (fun k i => x8 (ix2 k i)) (fun k => x9 (ix1 k)) m k := by
  have el : ∀ i : Fin 128, lidx_main_v2 (ix3 b m k) i = ix3 b m i := fun i => by idx3
  have er : ∀ i : Fin 128, ridx_main_v2 (ix3 b m k) i = ix2 k i := fun i => by idx2
  have eb : idx_main_v3 (idx_main_v4 (ix3 b m k)) = ix1 k := by idx1
  rw [val_main_v5_apply, val_main_v2_apply, val_main_v4_apply, val_main_v3_apply, eb, Ideal.addf_def]
  unfold Cell.edge
  congr 1
  exact Finset.sum_congr rfl fun i _ => by rw [el, er]

/-- Outgoing direction: the same layer with the other weights and bias. -/
theorem edgeOut_at (b : Fin 1024) (m : Fin 200) (k : Fin 128) :
    val_main_v9 (F := Ideal) x1 x10 x11 (ix3 b m k) = Cell.edge (fun l k => x1 (ix3 b l k)) (fun k i => x10 (ix2 k i)) (fun k => x11 (ix1 k)) m k := by
  have el : ∀ i : Fin 128, lidx_main_v6 (ix3 b m k) i = ix3 b m i := fun i => by idx3
  have er : ∀ i : Fin 128, ridx_main_v6 (ix3 b m k) i = ix2 k i := fun i => by idx2
  have eb : idx_main_v7 (idx_main_v8 (ix3 b m k)) = ix1 k := by idx1
  rw [val_main_v9_apply, val_main_v6_apply, val_main_v8_apply, val_main_v7_apply, eb, Ideal.addf_def]
  unfold Cell.edge
  congr 1
  exact Finset.sum_congr rfl fun i _ => by rw [el, er]

/-! ## Messages: each node's adjacency row against all nodes' edge features -/

/-- The incoming adjacency matrix is the first 200 columns of the adjacency array. -/
theorem adjIn_at (b : Fin 1024) (l m : Fin 200) :
    val_main_v0 (F := Ideal) x0 (ix3 b l m) = x0 (ix3 b l (Cell.colIn m)) := by
  have e : idx_main_v0 (ix3 b l m) = ix3 b l (Cell.colIn m) := by idx3
  rw [val_main_v0_apply, e]

/-- The outgoing adjacency matrix is the last 200 columns. -/
theorem adjOut_at (b : Fin 1024) (l m : Fin 200) :
    val_main_v1 (F := Ideal) x0 (ix3 b l m) = x0 (ix3 b l (Cell.colOut m)) := by
  have e : idx_main_v1 (ix3 b l m) = ix3 b l (Cell.colOut m) := by idx3
  rw [val_main_v1_apply, e]

/-- The incoming message: the batched product contracts the adjacency row of node `l` with the nodes' edge features,
    graph by graph; the bias is broadcast over graphs and nodes. -/
theorem msgIn_at (b : Fin 1024) (l : Fin 200) (k : Fin 128) :
    val_main_v13 (F := Ideal) x0 x1 x6 x8 x9 (ix3 b l k) = Cell.msg (fun l m => x0 (ix3 b l (Cell.colIn m))) (Cell.edge (fun l k => x1 (ix3 b l k)) (fun k i => x8 (ix2 k i)) (fun k => x9 (ix1 k))) (fun k => x6 (ix1 k)) l k := by
  have el : ∀ m : Fin 200, lidx_main_v10 (ix3 b l k) m = ix3 b l m := fun m => by idx3
  have er : ∀ m : Fin 200, ridx_main_v10 (ix3 b l k) m = ix3 b m k := fun m => by idx3
  have eb : idx_main_v11 (idx_main_v12 (ix3 b l k)) = ix1 k := by idx1
  rw [val_main_v13_apply, val_main_v10_apply, val_main_v12_apply, val_main_v11_apply, eb, Ideal.addf_def]
  unfold Cell.msg
  congr 1
  exact Finset.sum_congr rfl fun m _ => by rw [el, er, adjIn_at, edgeIn_at]

/-- The outgoing message, the same with the other half of the adjacency array and the other edge features. -/
theorem msgOut_at (b : Fin 1024) (l : Fin 200) (k : Fin 128) :
    val_main_v17 (F := Ideal) x0 x1 x7 x10 x11 (ix3 b l k) = Cell.msg (fun l m => x0 (ix3 b l (Cell.colOut m))) (Cell.edge (fun l k => x1 (ix3 b l k)) (fun k i => x10 (ix2 k i)) (fun k => x11 (ix1 k))) (fun k => x7 (ix1 k)) l k := by
  have el : ∀ m : Fin 200, lidx_main_v14 (ix3 b l k) m = ix3 b l m := fun m => by idx3
  have er : ∀ m : Fin 200, ridx_main_v14 (ix3 b l k) m = ix3 b m k := fun m => by idx3
  have eb : idx_main_v15 (idx_main_v16 (ix3 b l k)) = ix1 k := by idx1
  rw [val_main_v17_apply, val_main_v14_apply, val_main_v16_apply, val_main_v15_apply, eb, Ideal.addf_def]
  unfold Cell.msg
  congr 1
  exact Finset.sum_congr rfl fun m _ => by rw [el, er, adjOut_at, edgeOut_at]

/-! ## The two messages side by side -/

/-- The concatenation along the column axis: a column below 128 reads the incoming message at that column, any other
    column reads the outgoing message 128 columns to the left. -/
theorem joined_at (b : Fin 1024) (l : Fin 200) (c : Fin 256) :
    val_main_v18 (F := Ideal) x0 x1 x6 x7 x8 x9 x10 x11 (ix3 b l c) = Cell.joined (fun l k => x1 (ix3 b l k)) (fun l m => x0 (ix3 b l (Cell.colIn m))) (fun l m => x0 (ix3 b l (Cell.colOut m))) (fun k => x6 (ix1 k)) (fun k => x7 (ix1 k)) (fun k i => x8 (ix2 k i)) (fun k => x9 (ix1 k)) (fun k i => x10 (ix2 k i)) (fun k => x11 (ix1 k)) l c := by
  unfold val_main_v18 Cell.joined
  by_cases hc : c.val < 128
  · rw [dif_pos hc]
    refine (concatenate_pair_apply_left (s₁ := S1024x200x128) (s₂ := S1024x200x128) _ _ _ _ (ix3 b l c) rfl (ix3 b l (⟨c.val, hc⟩ : Fin 128)) (fun a => by
      match a with | ⟨0, _⟩ => rfl | ⟨1, _⟩ => rfl | ⟨2, _⟩ => rfl)).trans ?_
    exact msgIn_at x0 x1 x6 x8 x9 b l ⟨c.val, hc⟩
  · rw [dif_neg hc]
    have hlt : c.val - 128 < 128 := by have := c.isLt; omega
    refine (concatenate_pair_apply_right (s₁ := S1024x200x128) (s₂ := S1024x200x128) _ _ _ _ (ix3 b l c) rfl rfl (ix3 b l (⟨c.val - 128, hlt⟩ : Fin 128)) (fun a ha => by
      match a, ha with
      | ⟨0, _⟩, _ => rfl
      | ⟨1, _⟩, _ => rfl
      | ⟨2, _⟩, ha => exact absurd rfl ha) ?_).trans ?_
    · show c.val - 128 + 128 = c.val
      omega
    · exact msgOut_at x0 x1 x7 x10 x11 b l ⟨c.val - 128, hlt⟩

/-! ## The unit's two dense layers with 384 outputs -/

/-- The input side: a dense layer of the joined messages, the sum running over their 256 columns. -/
theorem gateIn_at (b : Fin 1024) (l : Fin 200) (g : Fin 384) :
    val_main_v22 (F := Ideal) x0 x1 x2 x4 x6 x7 x8 x9 x10 x11 (ix3 b l g) = Cell.gateIn (fun l k => x1 (ix3 b l k)) (fun l m => x0 (ix3 b l (Cell.colIn m))) (fun l m => x0 (ix3 b l (Cell.colOut m))) (fun g c => x2 (ix2 g c)) (fun g => x4 (ix1 g)) (fun k => x6 (ix1 k)) (fun k => x7 (ix1 k)) (fun k i => x8 (ix2 k i)) (fun k => x9 (ix1 k)) (fun k i => x10 (ix2 k i)) (fun k => x11 (ix1 k)) l g := by
  have el : ∀ c : Fin 256, lidx_main_v19 (ix3 b l g) c = ix3 b l c := fun c => by idx3
  have er : ∀ c : Fin 256, ridx_main_v19 (ix3 b l g) c = ix2 g c := fun c => by idx2
  have eb : idx_main_v20 (idx_main_v21 (ix3 b l g)) = ix1 g := by idx1
  rw [val_main_v22_apply, val_main_v19_apply, val_main_v21_apply, val_main_v20_apply, eb, Ideal.addf_def]
  unfold Cell.gateIn
  congr 1
  exact Finset.sum_congr rfl fun c _ => by rw [el, er, joined_at]

/-- The state side: a dense layer of the old state. -/
theorem gateHid_at (b : Fin 1024) (l : Fin 200) (g : Fin 384) :
    val_main_v26 (F := Ideal) x1 x3 x5 (ix3 b l g) = Cell.gateHid (fun l k => x1 (ix3 b l k)) (fun g i => x3 (ix2 g i)) (fun g => x5 (ix1 g)) l g := by
  have el : ∀ i : Fin 128, lidx_main_v23 (ix3 b l g) i = ix3 b l i := fun i => by idx3
  have er : ∀ i : Fin 128, ridx_main_v23 (ix3 b l g) i = ix2 g i := fun i => by idx2
  have eb : idx_main_v24 (idx_main_v25 (ix3 b l g)) = ix1 g := by idx1
  rw [val_main_v26_apply, val_main_v23_apply, val_main_v25_apply, val_main_v24_apply, eb, Ideal.addf_def]
  unfold Cell.gateHid
  congr 1
  exact Finset.sum_congr rfl fun i _ => by rw [el, er]

/-! ## The three runs of 128 columns of each dense layer -/

/-- The input side's first run of 128 columns (the reset gate's). -/
theorem inLo_at (b : Fin 1024) (l : Fin 200) (j : Fin 128) :
    val_main_v27 (F := Ideal) x0 x1 x2 x4 x6 x7 x8 x9 x10 x11 (ix3 b l j) = Cell.gateIn (fun l k => x1 (ix3 b l k)) (fun l m => x0 (ix3 b l (Cell.colIn m))) (fun l m => x0 (ix3 b l (Cell.colOut m))) (fun g c => x2 (ix2 g c)) (fun g => x4 (ix1 g)) (fun k => x6 (ix1 k)) (fun k => x7 (ix1 k)) (fun k i => x8 (ix2 k i)) (fun k => x9 (ix1 k)) (fun k i => x10 (ix2 k i)) (fun k => x11 (ix1 k)) l (Cell.lo j) := by
  have e : idx_main_v27 (ix3 b l j) = ix3 b l (Cell.lo j) := by idx3
  rw [val_main_v27_apply, e, gateIn_at]

/-- The input side's second run (the update gate's). -/
theorem inMid_at (b : Fin 1024) (l : Fin 200) (j : Fin 128) :
    val_main_v28 (F := Ideal) x0 x1 x2 x4 x6 x7 x8 x9 x10 x11 (ix3 b l j) = Cell.gateIn (fun l k => x1 (ix3 b l k)) (fun l m => x0 (ix3 b l (Cell.colIn m))) (fun l m => x0 (ix3 b l (Cell.colOut m))) (fun g c => x2 (ix2 g c)) (fun g => x4 (ix1 g)) (fun k => x6 (ix1 k)) (fun k => x7 (ix1 k)) (fun k i => x8 (ix2 k i)) (fun k => x9 (ix1 k)) (fun k i => x10 (ix2 k i)) (fun k => x11 (ix1 k)) l (Cell.mid j) := by
  have e : idx_main_v28 (ix3 b l j) = ix3 b l (Cell.mid j) := by idx3
  rw [val_main_v28_apply, e, gateIn_at]

/-- The input side's third run (the candidate's). -/
theorem inHi_at (b : Fin 1024) (l : Fin 200) (j : Fin 128) :
    val_main_v29 (F := Ideal) x0 x1 x2 x4 x6 x7 x8 x9 x10 x11 (ix3 b l j) = Cell.gateIn (fun l k => x1 (ix3 b l k)) (fun l m => x0 (ix3 b l (Cell.colIn m))) (fun l m => x0 (ix3 b l (Cell.colOut m))) (fun g c => x2 (ix2 g c)) (fun g => x4 (ix1 g)) (fun k => x6 (ix1 k)) (fun k => x7 (ix1 k)) (fun k i => x8 (ix2 k i)) (fun k => x9 (ix1 k)) (fun k i => x10 (ix2 k i)) (fun k => x11 (ix1 k)) l (Cell.hi j) := by
  have e : idx_main_v29 (ix3 b l j) = ix3 b l (Cell.hi j) := by idx3
  rw [val_main_v29_apply, e, gateIn_at]

/-- The state side's first run. -/
theorem hidLo_at (b : Fin 1024) (l : Fin 200) (j : Fin 128) :
    val_main_v30 (F := Ideal) x1 x3 x5 (ix3 b l j) = Cell.gateHid (fun l k => x1 (ix3 b l k)) (fun g i => x3 (ix2 g i)) (fun g => x5 (ix1 g)) l (Cell.lo j) := by
  have e : idx_main_v30 (ix3 b l j) = ix3 b l (Cell.lo j) := by idx3
  rw [val_main_v30_apply, e, gateHid_at]

/-- The state side's second run. -/
theorem hidMid_at (b : Fin 1024) (l : Fin 200) (j : Fin 128) :
    val_main_v31 (F := Ideal) x1 x3 x5 (ix3 b l j) = Cell.gateHid (fun l k => x1 (ix3 b l k)) (fun g i => x3 (ix2 g i)) (fun g => x5 (ix1 g)) l (Cell.mid j) := by
  have e : idx_main_v31 (ix3 b l j) = ix3 b l (Cell.mid j) := by idx3
  rw [val_main_v31_apply, e, gateHid_at]

/-- The state side's third run. -/
theorem hidHi_at (b : Fin 1024) (l : Fin 200) (j : Fin 128) :
    val_main_v32 (F := Ideal) x1 x3 x5 (ix3 b l j) = Cell.gateHid (fun l k => x1 (ix3 b l k)) (fun g i => x3 (ix2 g i)) (fun g => x5 (ix1 g)) l (Cell.hi j) := by
  have e : idx_main_v32 (ix3 b l j) = ix3 b l (Cell.hi j) := by idx3
  rw [val_main_v32_apply, e, gateHid_at]

/-! ## The gates, pointwise -/

/-- The reset gate: the program writes the logistic function out as `1 / (1 + exp (-x))`, both ones being the f32 word
    of 1.0 broadcast from a scalar; that is the logistic function's definition. -/
theorem reset_at (b : Fin 1024) (l : Fin 200) (j : Fin 128) :
    val_main_v39 (F := Ideal) x0 x1 x2 x3 x4 x5 x6 x7 x8 x9 x10 x11 (ix3 b l j) = Ideal.logistic (Cell.gateIn (fun l k => x1 (ix3 b l k)) (fun l m => x0 (ix3 b l (Cell.colIn m))) (fun l m => x0 (ix3 b l (Cell.colOut m))) (fun g c => x2 (ix2 g c)) (fun g => x4 (ix1 g)) (fun k => x6 (ix1 k)) (fun k => x7 (ix1 k)) (fun k i => x8 (ix2 k i)) (fun k => x9 (ix1 k)) (fun k i => x10 (ix2 k i)) (fun k => x11 (ix1 k)) l (Cell.lo j) + Cell.gateHid (fun l k => x1 (ix3 b l k)) (fun g i => x3 (ix2 g i)) (fun g => x5 (ix1 g)) l (Cell.lo j)) := by
  rw [val_main_v39_apply, val_main_v38_apply, val_main_v37_apply, val_main_v36_apply, val_main_v35_apply,
    val_main_v34_apply, val_main_v33_apply, inLo_at, hidLo_at]
  unfold val_main_cst val_main_cst_0
  rw [constant_apply, Cell.ofBits_one_f32, Ideal.hostDivf_def, Ideal.addf_def, Ideal.addf_def,
    Ideal.hostUnary_exp_def, Ideal.hostNegf_def, Ideal.negf_def]
  unfold Ideal.logistic
  rfl

/-- The update gate, the same expression on the second runs of columns. -/
theorem update_at (b : Fin 1024) (l : Fin 200) (j : Fin 128) :
    val_main_v46 (F := Ideal) x0 x1 x2 x3 x4 x5 x6 x7 x8 x9 x10 x11 (ix3 b l j) = Ideal.logistic (Cell.gateIn (fun l k => x1 (ix3 b l k)) (fun l m => x0 (ix3 b l (Cell.colIn m))) (fun l m => x0 (ix3 b l (Cell.colOut m))) (fun g c => x2 (ix2 g c)) (fun g => x4 (ix1 g)) (fun k => x6 (ix1 k)) (fun k => x7 (ix1 k)) (fun k i => x8 (ix2 k i)) (fun k => x9 (ix1 k)) (fun k i => x10 (ix2 k i)) (fun k => x11 (ix1 k)) l (Cell.mid j) + Cell.gateHid (fun l k => x1 (ix3 b l k)) (fun g i => x3 (ix2 g i)) (fun g => x5 (ix1 g)) l (Cell.mid j)) := by
  rw [val_main_v46_apply, val_main_v45_apply, val_main_v44_apply, val_main_v43_apply, val_main_v42_apply,
    val_main_v41_apply, val_main_v40_apply, inMid_at, hidMid_at]
  unfold val_main_cst_1 val_main_cst_2
  rw [constant_apply, Cell.ofBits_one_f32, Ideal.hostDivf_def, Ideal.addf_def, Ideal.addf_def,
    Ideal.hostUnary_exp_def, Ideal.hostNegf_def, Ideal.negf_def]
  unfold Ideal.logistic
  rfl

/-- The candidate state: the hyperbolic tangent of the input side's third run plus the reset gate times the state
    side's third run. -/
theorem cand_at (b : Fin 1024) (l : Fin 200) (j : Fin 128) :
    val_main_v49 (F := Ideal) x0 x1 x2 x3 x4 x5 x6 x7 x8 x9 x10 x11 (ix3 b l j) = Ideal.tanh (Cell.gateIn (fun l k => x1 (ix3 b l k)) (fun l m => x0 (ix3 b l (Cell.colIn m))) (fun l m => x0 (ix3 b l (Cell.colOut m))) (fun g c => x2 (ix2 g c)) (fun g => x4 (ix1 g)) (fun k => x6 (ix1 k)) (fun k => x7 (ix1 k)) (fun k i => x8 (ix2 k i)) (fun k => x9 (ix1 k)) (fun k i => x10 (ix2 k i)) (fun k => x11 (ix1 k)) l (Cell.hi j) + Ideal.logistic (Cell.gateIn (fun l k => x1 (ix3 b l k)) (fun l m => x0 (ix3 b l (Cell.colIn m))) (fun l m => x0 (ix3 b l (Cell.colOut m))) (fun g c => x2 (ix2 g c)) (fun g => x4 (ix1 g)) (fun k => x6 (ix1 k)) (fun k => x7 (ix1 k)) (fun k i => x8 (ix2 k i)) (fun k => x9 (ix1 k)) (fun k i => x10 (ix2 k i)) (fun k => x11 (ix1 k)) l (Cell.lo j) + Cell.gateHid (fun l k => x1 (ix3 b l k)) (fun g i => x3 (ix2 g i)) (fun g => x5 (ix1 g)) l (Cell.lo j)) * Cell.gateHid (fun l k => x1 (ix3 b l k)) (fun g i => x3 (ix2 g i)) (fun g => x5 (ix1 g)) l (Cell.hi j)) := by
  rw [val_main_v49_apply, val_main_v48_apply, val_main_v47_apply, inHi_at, reset_at, hidHi_at,
    Ideal.hostUnary_tanh_def, Ideal.addf_def, Ideal.mulf_def]

/-- The new state: the candidate plus the update gate times (old state minus candidate). -/
theorem out_at (b : Fin 1024) (l : Fin 200) (j : Fin 128) :
    val_main_v52 (F := Ideal) x0 x1 x2 x3 x4 x5 x6 x7 x8 x9 x10 x11 (ix3 b l j)
      = Cell.cell (fun l k => x1 (ix3 b l k)) (fun l m => x0 (ix3 b l (Cell.colIn m))) (fun l m => x0 (ix3 b l (Cell.colOut m))) (fun g c => x2 (ix2 g c)) (fun g i => x3 (ix2 g i)) (fun g => x4 (ix1 g)) (fun g => x5 (ix1 g)) (fun k => x6 (ix1 k)) (fun k => x7 (ix1 k)) (fun k i => x8 (ix2 k i)) (fun k => x9 (ix1 k)) (fun k i => x10 (ix2 k i)) (fun k => x11 (ix1 k)) l j := by
  rw [val_main_v52_apply, val_main_v51_apply, val_main_v50_apply, cand_at, update_at,
    Ideal.addf_def, Ideal.mulf_def, Ideal.subf_def]
  unfold Cell.cell
  rfl

end Stages

/-- The reference program's result is the batch of updated node states: every index is a graph, a node and a column,
    and at such an index the last stage has just been read. -/
theorem result_eq (x0 : (⟨S1024x200x400, .f32⟩ : BufTy).Contents (Elt Ideal)) (x1 : (⟨S1024x200x128, .f32⟩ : BufTy).Contents (Elt Ideal)) (x2 : (⟨S384x256, .f32⟩ : BufTy).Contents (Elt Ideal)) (x3 : (⟨S384x128, .f32⟩ : BufTy).Contents (Elt Ideal)) (x4 x5 : (⟨S384, .f32⟩ : BufTy).Contents (Elt Ideal)) (x6 x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    Cert.ReferenceIdeal.Read.val_main_v52 (F := Ideal) x0 x1 x2 x3 x4 x5 x6 x7 x8 x9 x10 x11
      = Cert.Cell.batchArr x0 x1 x2 x3 x4 x5 x6 x7 x8 x9 x10 x11 := by
  funext i
  obtain ⟨b, l, j, rfl⟩ : ∃ (b : Fin 1024) (l : Fin 200) (j : Fin 128), i = ix3 b l j := ⟨i 0, i 1, i 2, eq_ix3 i⟩
  rw [Cell.batchArr_ix3]
  unfold Cell.batch
  exact out_at x0 x1 x2 x3 x4 x5 x6 x7 x8 x9 x10 x11 b l j

end Cert.ReferenceIdeal.RefValue

end
-- ==== Proof.KerOps.lean ====
/-
  The operations of one tile of eight graphs, read at an index.

  The program works on a tile of 8 graphs at a time and flattens (graph, node) to one of 1600 rows, row-major:
  node `l` of graph `g` is row `g · 200 + l`. Its dense layers are matrix products that contract the LAST axis of both
  operands (row `r` of the left against row `c` of the right: the weights are stored output-major), into a zero
  accumulator; the adjacency product is batched over the graph axis. Here each of these is read at an index as a plain
  sum over the contracted coordinate, and the two flattenings, the joining of two 128-column blocks and the reading of
  column runs are read at an index as the operand at one index. Nothing is evaluated: every extent stays symbolic in the
  coordinates.
-/
import proofs.«160301_j24060406792471_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Idealize.ShloMosaic Idealize.ShloMosaic.ValueIdx

/-- Node `l` of graph `g` among the 1600 rows of a tile. -/
abbrev row (g : Fin 8) (l : Fin 200) : Fin 1600 := ⟨g.val * 200 + l.val, by omega⟩

/-! ## The two flattenings -/

/-- The tile flattened to rows, read at row `(g, l)`, is the tile at `(g, l, ·)`: the two indices have one row-major position. -/
theorem flat_apply {α : Type} (v : S8x200x128.Idx → α) (h : S8x200x128.ShapeCasts S1600x128) (g : Fin 8) (l : Fin 200) (k : Fin 128) :
    shapeCast S1600x128 v h (ix2 (row g l) k) = v (ix3 g l k) :=
  shapeCast_apply v h _ _ (by
    rw [Shape.rowMajor_val_three, Shape.rowMajor_val_two]
    show (g.val * 200 + l.val) * 128 + k.val = (g.val * 200 + l.val) * 128 + k.val
    rfl)

/-- The rows cut back into graphs, read at `(g, l, ·)`, are row `(g, l)`. -/
theorem unflat_apply {α : Type} (v : S1600x128.Idx → α) (h : S1600x128.ShapeCasts S8x200x128) (g : Fin 8) (l : Fin 200) (k : Fin 128) :
    shapeCast S8x200x128 v h (ix3 g l k) = v (ix2 (row g l) k) :=
  shapeCast_apply v h _ _ (by
    rw [Shape.rowMajor_val_three, Shape.rowMajor_val_two]
    show (g.val * 200 + l.val) * 128 + k.val = (g.val * 200 + l.val) * 128 + k.val
    rfl)

/-! ## Two 128-column blocks side by side -/

theorem join_left {α : Type} (x₁ x₂ : S1600x128.Idx → α) (h : Shape.Concatenates [S1600x128, S1600x128] S1600x256 1)
    (r : Fin 1600) (c : Fin 256) (hc : c.val < 128) :
    concatenate S1600x256 1 [⟨S1600x128, x₁⟩, ⟨S1600x128, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

theorem join_right {α : Type} (x₁ x₂ : S1600x128.Idx → α) (h : Shape.Concatenates [S1600x128, S1600x128] S1600x256 1)
    (r : Fin 1600) (c : Fin 256) (hc : 128 ≤ c.val) :
    concatenate S1600x256 1 [⟨S1600x128, x₁⟩, ⟨S1600x128, x₂⟩] h (ix2 r c) = x₂ (ix2 r ⟨c.val - 128, by omega⟩) :=
  concatenate_pair_apply_right 1 x₁ x₂ h (ix2 r c) rfl rfl (ix2 r ⟨c.val - 128, by omega⟩) (fun b hb => by
    match b with
    | ⟨0, _⟩ => rfl
    | ⟨1, _⟩ => exact absurd rfl hb) (by show (c.val - 128) + 128 = c.val; omega)

/-! ## The matrix products, as sums -/

/-! ### 1600 rows of 128 against 128 output rows of 128: the edge-feature layers -/

theorem edgeDot_lhs0 (i : S1600x128.Idx) (q : dot_S1600x128_S128x128_S1600x128_1_1_0_0_n_n.contr.Idx) : (dot_S1600x128_S128x128_S1600x128_1_1_0_0_n_n.lhsIdx i q 0).val = (i 0).val := by
  unfold DotDims.lhsIdx
  rw [dif_neg (show ¬(0 : Fin S1600x128.rank) ∈ dot_S1600x128_S128x128_S1600x128_1_1_0_0_n_n.lhsBatch by decide), dif_pos (show (0 : Fin S1600x128.rank) ∈ dot_S1600x128_S128x128_S1600x128_1_1_0_0_n_n.lhsNonContracting by decide)]
  rfl
theorem edgeDot_lhs1 (i : S1600x128.Idx) (q : dot_S1600x128_S128x128_S1600x128_1_1_0_0_n_n.contr.Idx) : (dot_S1600x128_S128x128_S1600x128_1_1_0_0_n_n.lhsIdx i q 1).val = (q ⟨0, by decide⟩).val :=
  dot_S1600x128_S128x128_S1600x128_1_1_0_0_n_n.lhsIdx_val_of_single rfl i q
theorem edgeDot_rhs0 (i : S1600x128.Idx) (q : dot_S1600x128_S128x128_S1600x128_1_1_0_0_n_n.contr.Idx) : (dot_S1600x128_S128x128_S1600x128_1_1_0_0_n_n.rhsIdx i q 0).val = (i 1).val := by
  unfold DotDims.rhsIdx
  rw [dif_neg (show ¬(0 : Fin S128x128.rank) ∈ dot_S1600x128_S128x128_S1600x128_1_1_0_0_n_n.rhsBatch by decide), dif_pos (show (0 : Fin S128x128.rank) ∈ dot_S1600x128_S128x128_S1600x128_1_1_0_0_n_n.rhsNonContracting by decide)]
  rfl
theorem edgeDot_rhs1 (i : S1600x128.Idx) (q : dot_S1600x128_S128x128_S1600x128_1_1_0_0_n_n.contr.Idx) : (dot_S1600x128_S128x128_S1600x128_1_1_0_0_n_n.rhsIdx i q 1).val = (q ⟨0, by decide⟩).val :=
  dot_S1600x128_S128x128_S1600x128_1_1_0_0_n_n.rhsIdx_val_of_single rfl i q

/-- Entry `(r, c)` of the product into a zero accumulator is row `r` of the left operand against row `c` of the right one. -/
theorem edgeDot_apply (lhs : FVec Ideal S1600x128 .bf16) (rhs : FVec Ideal S128x128 .bf16) (r : Fin 1600) (c : Fin 128) :
    matmul dot_S1600x128_S128x128_S1600x128_1_1_0_0_n_n none lhs rhs (constant (F := Ideal) S1600x128 .f32 0x00000000#32) (ix2 r c)
      = ∑ k : Fin 128, lhs (ix2 r k) * rhs (ix2 c k) := by
  simp only [matmul]
  rw [Ideal.matmul_constant_zero_apply, ← Equiv.sum_comp (contrEquiv1 dot_S1600x128_S128x128_S1600x128_1_1_0_0_n_n 128 rfl rfl).symm]
  refine Finset.sum_congr rfl fun k _ => ?_
  have hk := contrEquiv1_symm_val dot_S1600x128_S128x128_S1600x128_1_1_0_0_n_n 128 rfl rfl k
  have el : dot_S1600x128_S128x128_S1600x128_1_1_0_0_n_n.lhsIdx (ix2 r c) ((contrEquiv1 dot_S1600x128_S128x128_S1600x128_1_1_0_0_n_n 128 rfl rfl).symm k) = ix2 r k := funext fun a => Fin.ext (by
    match a with
    | ⟨0, _⟩ => exact edgeDot_lhs0 _ _
    | ⟨1, _⟩ => exact (edgeDot_lhs1 _ _).trans hk)
  have er : dot_S1600x128_S128x128_S1600x128_1_1_0_0_n_n.rhsIdx (ix2 r c) ((contrEquiv1 dot_S1600x128_S128x128_S1600x128_1_1_0_0_n_n 128 rfl rfl).symm k) = ix2 c k := funext fun a => Fin.ext (by
    match a with
    | ⟨0, _⟩ => exact edgeDot_rhs0 _ _
    | ⟨1, _⟩ => exact (edgeDot_rhs1 _ _).trans hk)
  rw [el, er]

/-! ### 1600 rows of 256 against 384 output rows of 256: the unit's input-side layer -/

theorem inDot_lhs0 (i : S1600x384.Idx) (q : dot_S1600x256_S384x256_S1600x384_1_1_0_0_n_n.contr.Idx) : (dot_S1600x256_S384x256_S1600x384_1_1_0_0_n_n.lhsIdx i q 0).val = (i 0).val := by
  unfold DotDims.lhsIdx
  rw [dif_neg (show ¬(0 : Fin S1600x256.rank) ∈ dot_S1600x256_S384x256_S1600x384_1_1_0_0_n_n.lhsBatch by decide), dif_pos (show (0 : Fin S1600x256.rank) ∈ dot_S1600x256_S384x256_S1600x384_1_1_0_0_n_n.lhsNonContracting by decide)]
  rfl
theorem inDot_lhs1 (i : S1600x384.Idx) (q : dot_S1600x256_S384x256_S1600x384_1_1_0_0_n_n.contr.Idx) : (dot_S1600x256_S384x256_S1600x384_1_1_0_0_n_n.lhsIdx i q 1).val = (q ⟨0, by decide⟩).val :=
  dot_S1600x256_S384x256_S1600x384_1_1_0_0_n_n.lhsIdx_val_of_single rfl i q
theorem inDot_rhs0 (i : S1600x384.Idx) (q : dot_S1600x256_S384x256_S1600x384_1_1_0_0_n_n.contr.Idx) : (dot_S1600x256_S384x256_S1600x384_1_1_0_0_n_n.rhsIdx i q 0).val = (i 1).val := by
  unfold DotDims.rhsIdx
  rw [dif_neg (show ¬(0 : Fin S384x256.rank) ∈ dot_S1600x256_S384x256_S1600x384_1_1_0_0_n_n.rhsBatch by decide), dif_pos (show (0 : Fin S384x256.rank) ∈ dot_S1600x256_S384x256_S1600x384_1_1_0_0_n_n.rhsNonContracting by decide)]
  rfl
theorem inDot_rhs1 (i : S1600x384.Idx) (q : dot_S1600x256_S384x256_S1600x384_1_1_0_0_n_n.contr.Idx) : (dot_S1600x256_S384x256_S1600x384_1_1_0_0_n_n.rhsIdx i q 1).val = (q ⟨0, by decide⟩).val :=
  dot_S1600x256_S384x256_S1600x384_1_1_0_0_n_n.rhsIdx_val_of_single rfl i q

/-- Entry `(r, c)` of the product into a zero accumulator is row `r` of the left operand against row `c` of the right one. -/
theorem inDot_apply (lhs : FVec Ideal S1600x256 .bf16) (rhs : FVec Ideal S384x256 .bf16) (r : Fin 1600) (c : Fin 384) :
    matmul dot_S1600x256_S384x256_S1600x384_1_1_0_0_n_n none lhs rhs (constant (F := Ideal) S1600x384 .f32 0x00000000#32) (ix2 r c)
      = ∑ k : Fin 256, lhs (ix2 r k) * rhs (ix2 c k) := by
  simp only [matmul]
  rw [Ideal.matmul_constant_zero_apply, ← Equiv.sum_comp (contrEquiv1 dot_S1600x256_S384x256_S1600x384_1_1_0_0_n_n 256 rfl rfl).symm]
  refine Finset.sum_congr rfl fun k _ => ?_
  have hk := contrEquiv1_symm_val dot_S1600x256_S384x256_S1600x384_1_1_0_0_n_n 256 rfl rfl k
  have el : dot_S1600x256_S384x256_S1600x384_1_1_0_0_n_n.lhsIdx (ix2 r c) ((contrEquiv1 dot_S1600x256_S384x256_S1600x384_1_1_0_0_n_n 256 rfl rfl).symm k) = ix2 r k := funext fun a => Fin.ext (by
    match a with
    | ⟨0, _⟩ => exact inDot_lhs0 _ _
    | ⟨1, _⟩ => exact (inDot_lhs1 _ _).trans hk)
  have er : dot_S1600x256_S384x256_S1600x384_1_1_0_0_n_n.rhsIdx (ix2 r c) ((contrEquiv1 dot_S1600x256_S384x256_S1600x384_1_1_0_0_n_n 256 rfl rfl).symm k) = ix2 c k := funext fun a => Fin.ext (by
    match a with
    | ⟨0, _⟩ => exact inDot_rhs0 _ _
    | ⟨1, _⟩ => exact (inDot_rhs1 _ _).trans hk)
  rw [el, er]

/-! ### 1600 rows of 128 against 384 output rows of 128: the unit's state-side layer -/

theorem hidDot_lhs0 (i : S1600x384.Idx) (q : dot_S1600x128_S384x128_S1600x384_1_1_0_0_n_n.contr.Idx) : (dot_S1600x128_S384x128_S1600x384_1_1_0_0_n_n.lhsIdx i q 0).val = (i 0).val := by
  unfold DotDims.lhsIdx
  rw [dif_neg (show ¬(0 : Fin S1600x128.rank) ∈ dot_S1600x128_S384x128_S1600x384_1_1_0_0_n_n.lhsBatch by decide), dif_pos (show (0 : Fin S1600x128.rank) ∈ dot_S1600x128_S384x128_S1600x384_1_1_0_0_n_n.lhsNonContracting by decide)]
  rfl
theorem hidDot_lhs1 (i : S1600x384.Idx) (q : dot_S1600x128_S384x128_S1600x384_1_1_0_0_n_n.contr.Idx) : (dot_S1600x128_S384x128_S1600x384_1_1_0_0_n_n.lhsIdx i q 1).val = (q ⟨0, by decide⟩).val :=
  dot_S1600x128_S384x128_S1600x384_1_1_0_0_n_n.lhsIdx_val_of_single rfl i q
theorem hidDot_rhs0 (i : S1600x384.Idx) (q : dot_S1600x128_S384x128_S1600x384_1_1_0_0_n_n.contr.Idx) : (dot_S1600x128_S384x128_S1600x384_1_1_0_0_n_n.rhsIdx i q 0).val = (i 1).val := by
  unfold DotDims.rhsIdx
  rw [dif_neg (show ¬(0 : Fin S384x128.rank) ∈ dot_S1600x128_S384x128_S1600x384_1_1_0_0_n_n.rhsBatch by decide), dif_pos (show (0 : Fin S384x128.rank) ∈ dot_S1600x128_S384x128_S1600x384_1_1_0_0_n_n.rhsNonContracting by decide)]
  rfl
theorem hidDot_rhs1 (i : S1600x384.Idx) (q : dot_S1600x128_S384x128_S1600x384_1_1_0_0_n_n.contr.Idx) : (dot_S1600x128_S384x128_S1600x384_1_1_0_0_n_n.rhsIdx i q 1).val = (q ⟨0, by decide⟩).val :=
  dot_S1600x128_S384x128_S1600x384_1_1_0_0_n_n.rhsIdx_val_of_single rfl i q

/-- Entry `(r, c)` of the product into a zero accumulator is row `r` of the left operand against row `c` of the right one. -/
theorem hidDot_apply (lhs : FVec Ideal S1600x128 .bf16) (rhs : FVec Ideal S384x128 .bf16) (r : Fin 1600) (c : Fin 384) :
    matmul dot_S1600x128_S384x128_S1600x384_1_1_0_0_n_n none lhs rhs (constant (F := Ideal) S1600x384 .f32 0x00000000#32) (ix2 r c)
      = ∑ k : Fin 128, lhs (ix2 r k) * rhs (ix2 c k) := by
  simp only [matmul]
  rw [Ideal.matmul_constant_zero_apply, ← Equiv.sum_comp (contrEquiv1 dot_S1600x128_S384x128_S1600x384_1_1_0_0_n_n 128 rfl rfl).symm]
  refine Finset.sum_congr rfl fun k _ => ?_
  have hk := contrEquiv1_symm_val dot_S1600x128_S384x128_S1600x384_1_1_0_0_n_n 128 rfl rfl k
  have el : dot_S1600x128_S384x128_S1600x384_1_1_0_0_n_n.lhsIdx (ix2 r c) ((contrEquiv1 dot_S1600x128_S384x128_S1600x384_1_1_0_0_n_n 128 rfl rfl).symm k) = ix2 r k := funext fun a => Fin.ext (by
    match a with
    | ⟨0, _⟩ => exact hidDot_lhs0 _ _
    | ⟨1, _⟩ => exact (hidDot_lhs1 _ _).trans hk)
  have er : dot_S1600x128_S384x128_S1600x384_1_1_0_0_n_n.rhsIdx (ix2 r c) ((contrEquiv1 dot_S1600x128_S384x128_S1600x384_1_1_0_0_n_n 128 rfl rfl).symm k) = ix2 c k := funext fun a => Fin.ext (by
    match a with
    | ⟨0, _⟩ => exact hidDot_rhs0 _ _
    | ⟨1, _⟩ => exact (hidDot_rhs1 _ _).trans hk)
  rw [el, er]

/-! ### The adjacency product, one graph at a time: batched over the first axis, the adjacency row against the node axis -/

theorem adjDot_lhs0 (i : S8x200x128.Idx) (q : dot_S8x200x200_S8x200x128_S8x200x128_2_1_1_2_0_0.contr.Idx) : (dot_S8x200x200_S8x200x128_S8x200x128_2_1_1_2_0_0.lhsIdx i q 0).val = (i 0).val := by
  unfold DotDims.lhsIdx
  rw [dif_pos (show (0 : Fin S8x200x200.rank) ∈ dot_S8x200x200_S8x200x128_S8x200x128_2_1_1_2_0_0.lhsBatch by decide)]
  rfl
theorem adjDot_lhs1 (i : S8x200x128.Idx) (q : dot_S8x200x200_S8x200x128_S8x200x128_2_1_1_2_0_0.contr.Idx) : (dot_S8x200x200_S8x200x128_S8x200x128_2_1_1_2_0_0.lhsIdx i q 1).val = (i 1).val := by
  unfold DotDims.lhsIdx
  rw [dif_neg (show ¬(1 : Fin S8x200x200.rank) ∈ dot_S8x200x200_S8x200x128_S8x200x128_2_1_1_2_0_0.lhsBatch by decide), dif_pos (show (1 : Fin S8x200x200.rank) ∈ dot_S8x200x200_S8x200x128_S8x200x128_2_1_1_2_0_0.lhsNonContracting by decide)]
  rfl
theorem adjDot_lhs2 (i : S8x200x128.Idx) (q : dot_S8x200x200_S8x200x128_S8x200x128_2_1_1_2_0_0.contr.Idx) : (dot_S8x200x200_S8x200x128_S8x200x128_2_1_1_2_0_0.lhsIdx i q 2).val = (q ⟨0, by decide⟩).val :=
  dot_S8x200x200_S8x200x128_S8x200x128_2_1_1_2_0_0.lhsIdx_val_of_single rfl i q
theorem adjDot_rhs0 (i : S8x200x128.Idx) (q : dot_S8x200x200_S8x200x128_S8x200x128_2_1_1_2_0_0.contr.Idx) : (dot_S8x200x200_S8x200x128_S8x200x128_2_1_1_2_0_0.rhsIdx i q 0).val = (i 0).val := by
  unfold DotDims.rhsIdx
  rw [dif_pos (show (0 : Fin S8x200x128.rank) ∈ dot_S8x200x200_S8x200x128_S8x200x128_2_1_1_2_0_0.rhsBatch by decide)]
  rfl
theorem adjDot_rhs1 (i : S8x200x128.Idx) (q : dot_S8x200x200_S8x200x128_S8x200x128_2_1_1_2_0_0.contr.Idx) : (dot_S8x200x200_S8x200x128_S8x200x128_2_1_1_2_0_0.rhsIdx i q 1).val = (q ⟨0, by decide⟩).val :=
  dot_S8x200x200_S8x200x128_S8x200x128_2_1_1_2_0_0.rhsIdx_val_of_single rfl i q
theorem adjDot_rhs2 (i : S8x200x128.Idx) (q : dot_S8x200x200_S8x200x128_S8x200x128_2_1_1_2_0_0.contr.Idx) : (dot_S8x200x200_S8x200x128_S8x200x128_2_1_1_2_0_0.rhsIdx i q 2).val = (i 2).val := by
  unfold DotDims.rhsIdx
  rw [dif_neg (show ¬(2 : Fin S8x200x128.rank) ∈ dot_S8x200x200_S8x200x128_S8x200x128_2_1_1_2_0_0.rhsBatch by decide), dif_pos (show (2 : Fin S8x200x128.rank) ∈ dot_S8x200x200_S8x200x128_S8x200x128_2_1_1_2_0_0.rhsNonContracting by decide)]
  rfl

/-- Entry `(g, l, k)` of the batched product is graph `g`'s adjacency row `l` against column `k` of graph `g`'s features. -/
theorem adjDot_apply (lhs : FVec Ideal S8x200x200 .bf16) (rhs : FVec Ideal S8x200x128 .bf16) (g : Fin 8) (l : Fin 200) (k : Fin 128) :
    matmul dot_S8x200x200_S8x200x128_S8x200x128_2_1_1_2_0_0 none lhs rhs (constant (F := Ideal) S8x200x128 .f32 0x00000000#32) (ix3 g l k)
      = ∑ m : Fin 200, lhs (ix3 g l m) * rhs (ix3 g m k) := by
  simp only [matmul]
  rw [Ideal.matmul_constant_zero_apply, ← Equiv.sum_comp (contrEquiv1 dot_S8x200x200_S8x200x128_S8x200x128_2_1_1_2_0_0 200 rfl rfl).symm]
  refine Finset.sum_congr rfl fun m _ => ?_
  have hm := contrEquiv1_symm_val dot_S8x200x200_S8x200x128_S8x200x128_2_1_1_2_0_0 200 rfl rfl m
  have el : dot_S8x200x200_S8x200x128_S8x200x128_2_1_1_2_0_0.lhsIdx (ix3 g l k) ((contrEquiv1 dot_S8x200x200_S8x200x128_S8x200x128_2_1_1_2_0_0 200 rfl rfl).symm m) = ix3 g l m := funext fun a => Fin.ext (by
    match a with
    | ⟨0, _⟩ => exact adjDot_lhs0 _ _
    | ⟨1, _⟩ => exact adjDot_lhs1 _ _
    | ⟨2, _⟩ => exact (adjDot_lhs2 _ _).trans hm)
  have er : dot_S8x200x200_S8x200x128_S8x200x128_2_1_1_2_0_0.rhsIdx (ix3 g l k) ((contrEquiv1 dot_S8x200x200_S8x200x128_S8x200x128_2_1_1_2_0_0 200 rfl rfl).symm m) = ix3 g m k := funext fun a => Fin.ext (by
    match a with
    | ⟨0, _⟩ => exact adjDot_rhs0 _ _
    | ⟨1, _⟩ => exact (adjDot_rhs1 _ _).trans hm
    | ⟨2, _⟩ => exact adjDot_rhs2 _ _)
  rw [el, er]

end Cert.KernelIdeal.Tile

end
-- ==== Proof.KerCell.lean ====
/-
  What one tile's body computes, entry by entry: graph `g` of the tile, node `l`, coordinate `j` of the stored block is
  the gated update `Cell.cell` of graph `g`'s own slices of the loaded blocks.

  The body's arithmetic is cut into stages — the state rows, a direction's edge features, a direction's message, the two
  messages side by side, the two gate layers, the pointwise blend — each a definition mirroring the printed payload
  (equal to it by unfolding), and each read at tile row `(g, l)` as the corresponding stage of `Cell`. Changes of float
  format are the identity on the extended reals, the products into a zero accumulator are plain sums (the tile module),
  and every row the body touches is a row `(g, l)`: the flattening to 1600 rows never mixes two graphs.
-/
import proofs.«160301_j24060406792471_2_alg».proof.Proof.Gen.KernelIdeal.Skeleton
import proofs.«160301_j24060406792471_2_alg».proof.Proof.KerOps
import proofs.«160301_j24060406792471_2_alg».proof.Proof.Cell

noncomputable section

namespace Cert.KernelIdeal.Tile

open Cert.KernelIdeal Cert.KernelIdeal.Gen Idealize.ShloMosaic Idealize.ShloMosaic.ValueIdx

/-! ## Bias rows spread over the 1600 rows -/

def spread128 (b : Vec Ideal S1x128 .f32) : FVec Ideal S1600x128 .f32 :=
  broadcastTo S1600x128 (shapeCast S1x128 b shapeCasts_S1x128_S1x128) broadcasts_S1x128_S1600x128

theorem spread128_apply (b : Vec Ideal S1x128 .f32) (r : Fin 1600) (k : Fin 128) : spread128 b (ix2 r k) = b (ix2 0 k) := by
  unfold spread128
  refine (broadcastTo_1b_ab_apply _ _ r k).trans ?_
  rw [shapeCast_self]

def spread384 (b : Vec Ideal S1x384 .f32) : FVec Ideal S1600x384 .f32 :=
  broadcastTo S1600x384 (shapeCast S1x384 b shapeCasts_S1x384_S1x384) broadcasts_S1x384_S1600x384

theorem spread384_apply (b : Vec Ideal S1x384 .f32) (r : Fin 1600) (o : Fin 384) : spread384 b (ix2 r o) = b (ix2 0 o) := by
  unfold spread384
  refine (broadcastTo_1b_ab_apply _ _ r o).trans ?_
  rw [shapeCast_self]

/-! ## The state rows -/

/-- Row `(g, l)` of the flattened state block is node `l` of graph `g`. -/
theorem pay2_apply (v0 : Vec Ideal S8x200x128 .f32) (g : Fin 8) (l : Fin 200) (k : Fin 128) :
    k0_pay2 v0 (ix2 (row g l) k) = v0 (ix3 g l k) := by
  unfold k0_pay2
  exact flat_apply v0 _ g l k

/-- The same after the change of format, which is the identity here. -/
theorem pay3_apply (v0 : Vec Ideal S8x200x128 .f32) (g : Fin 8) (l : Fin 200) (k : Fin 128) :
    k0_pay3 v0 (ix2 (row g l) k) = v0 (ix3 g l k) := by
  unfold k0_pay3
  rw [truncf_apply]
  exact pay2_apply v0 g l k

/-! ## A direction's edge features, for every row of the tile -/

def edgeRows (v0 : Vec Ideal S8x200x128 .f32) (W : Vec Ideal S128x128 .f32) (b : Vec Ideal S1x128 .f32) : FVec Ideal S1600x128 .f32 :=
  addf (matmul dot_S1600x128_S128x128_S1600x128_1_1_0_0_n_n none (k0_pay3 v0) (truncf .bf16 W bitsLt_bf16_f32) (constant S1600x128 .f32 0x00000000#32)) (spread128 b)

theorem edgeRows_apply (v0 : Vec Ideal S8x200x128 .f32) (W : Vec Ideal S128x128 .f32) (b : Vec Ideal S1x128 .f32) (g : Fin 8) (m : Fin 200) (k : Fin 128) :
    edgeRows v0 W b (ix2 (row g m) k)
      = Cell.edge (fun l i => v0 (ix3 g l i)) (fun k i => W (ix2 k i)) (fun k => b (ix2 0 k)) m k := by
  unfold edgeRows Cell.edge
  rw [addf_apply, edgeDot_apply, spread128_apply]
  refine congrArg (· + _) (Finset.sum_congr rfl fun i _ => ?_)
  rw [truncf_apply, pay3_apply]

/-! ## A direction's message, before its bias, for every row of the tile -/

def msgRows (v0 : Vec Ideal S8x200x128 .f32) (a : Vec Ideal S8x200x200 .f32) (W : Vec Ideal S128x128 .f32) (b : Vec Ideal S1x128 .f32) : FVec Ideal S1600x128 .f32 :=
  shapeCast S1600x128
    (matmul dot_S8x200x200_S8x200x128_S8x200x128_2_1_1_2_0_0 none
      (truncf .bf16 (shapeCast S8x200x200 a shapeCasts_S8x200x200_S8x200x200) bitsLt_bf16_f32)
      (truncf .bf16 (shapeCast S8x200x128 (edgeRows v0 W b) shapeCasts_S1600x128_S8x200x128) bitsLt_bf16_f32)
      (constant S8x200x128 .f32 0x00000000#32))
    shapeCasts_S8x200x128_S1600x128

theorem pay5_eq (v0 : Vec Ideal S8x200x128 .f32) (v3 : Vec Ideal S8x200x200 .f32) (v9 : Vec Ideal S128x128 .f32) (v17 : Vec Ideal S1x128 .f32) :
    k0_pay5 v0 v3 v9 v17 = msgRows v0 v3 v9 v17 := rfl

theorem pay4_eq (v0 : Vec Ideal S8x200x128 .f32) (v1 : Vec Ideal S8x200x200 .f32) (v7 : Vec Ideal S128x128 .f32) (v12 v30 : Vec Ideal S1x128 .f32) :
    k0_pay4 v0 v1 v7 v12 v30 = addf (msgRows v0 v1 v7 v12) (spread128 v30) := rfl

theorem msgRows_apply (v0 : Vec Ideal S8x200x128 .f32) (a : Vec Ideal S8x200x200 .f32) (W : Vec Ideal S128x128 .f32) (b : Vec Ideal S1x128 .f32)
    (g : Fin 8) (l : Fin 200) (k : Fin 128) :
    msgRows v0 a W b (ix2 (row g l) k)
      = ∑ m : Fin 200, a (ix3 g l m) * Cell.edge (fun l i => v0 (ix3 g l i)) (fun k i => W (ix2 k i)) (fun k => b (ix2 0 k)) m k := by
  unfold msgRows
  refine (flat_apply _ _ g l k).trans ?_
  rw [adjDot_apply]
  refine Finset.sum_congr rfl fun m _ => ?_
  rw [truncf_apply, truncf_apply, shapeCast_self, unflat_apply, edgeRows_apply]

/-! ## The two messages side by side -/

theorem joined_apply (v0 : Vec Ideal S8x200x128 .f32) (v1 v3 : Vec Ideal S8x200x200 .f32) (v7 v9 : Vec Ideal S128x128 .f32)
    (v12 v17 v30 v35 : Vec Ideal S1x128 .f32) (g : Fin 8) (l : Fin 200) (c : Fin 256) :
    concatenate S1600x256 1 [⟨S1600x128, k0_pay4 v0 v1 v7 v12 v30⟩, ⟨S1600x128, addf (k0_pay5 v0 v3 v9 v17) (spread128 v35)⟩]
        concatenates_S1600x128_S1600x128_S1600x256_d1 (ix2 (row g l) c)
      = Cell.joined (fun l k => v0 (ix3 g l k)) (fun l m => v1 (ix3 g l m)) (fun l m => v3 (ix3 g l m))
          (fun k => v30 (ix2 0 k)) (fun k => v35 (ix2 0 k)) (fun k i => v7 (ix2 k i)) (fun k => v12 (ix2 0 k))
          (fun k i => v9 (ix2 k i)) (fun k => v17 (ix2 0 k)) l c := by
  unfold Cell.joined
  by_cases hc : c.val < 128
  · rw [dif_pos hc, join_left _ _ _ _ _ hc, pay4_eq, addf_apply, msgRows_apply, spread128_apply]
    rfl
  · rw [dif_neg hc, join_right _ _ _ _ _ (Nat.le_of_not_lt hc), pay5_eq, addf_apply, msgRows_apply, spread128_apply]
    rfl

/-! ## The unit's two dense layers, for every row of the tile -/

def gateInRows (p4 p5 : FVec Ideal S1600x128 .f32) (v35 : Vec Ideal S1x128 .f32) (v41 : Vec Ideal S384x256 .f32) (v44 : Vec Ideal S1x384 .f32) : FVec Ideal S1600x384 .f32 :=
  addf (matmul dot_S1600x256_S384x256_S1600x384_1_1_0_0_n_n none
      (truncf .bf16 (concatenate S1600x256 1 [⟨S1600x128, p4⟩, ⟨S1600x128, addf p5 (spread128 v35)⟩] concatenates_S1600x128_S1600x128_S1600x256_d1) bitsLt_bf16_f32)
      (truncf .bf16 v41 bitsLt_bf16_f32) (constant S1600x384 .f32 0x00000000#32))
    (spread384 v44)

def gateHidRows (v6 : FVec Ideal S1600x128 .bf16) (v48 : Vec Ideal S384x128 .f32) (v51 : Vec Ideal S1x384 .f32) : FVec Ideal S1600x384 .f32 :=
  addf (matmul dot_S1600x128_S384x128_S1600x384_1_1_0_0_n_n none v6 (truncf .bf16 v48 bitsLt_bf16_f32) (constant S1600x384 .f32 0x00000000#32))
    (spread384 v51)

theorem gateInRows_apply (v0 : Vec Ideal S8x200x128 .f32) (v1 v3 : Vec Ideal S8x200x200 .f32) (v7 v9 : Vec Ideal S128x128 .f32)
    (v12 v17 v30 v35 : Vec Ideal S1x128 .f32) (v41 : Vec Ideal S384x256 .f32) (v44 : Vec Ideal S1x384 .f32) (g : Fin 8) (l : Fin 200) (o : Fin 384) :
    gateInRows (k0_pay4 v0 v1 v7 v12 v30) (k0_pay5 v0 v3 v9 v17) v35 v41 v44 (ix2 (row g l) o)
      = Cell.gateIn (fun l k => v0 (ix3 g l k)) (fun l m => v1 (ix3 g l m)) (fun l m => v3 (ix3 g l m))
          (fun o c => v41 (ix2 o c)) (fun o => v44 (ix2 0 o))
          (fun k => v30 (ix2 0 k)) (fun k => v35 (ix2 0 k)) (fun k i => v7 (ix2 k i)) (fun k => v12 (ix2 0 k))
          (fun k i => v9 (ix2 k i)) (fun k => v17 (ix2 0 k)) l o := by
  unfold gateInRows Cell.gateIn
  rw [addf_apply, inDot_apply, spread384_apply]
  refine congrArg (· + _) (Finset.sum_congr rfl fun c _ => ?_)
  rw [truncf_apply, truncf_apply, joined_apply]

theorem gateHidRows_apply (v0 : Vec Ideal S8x200x128 .f32) (v48 : Vec Ideal S384x128 .f32) (v51 : Vec Ideal S1x384 .f32) (g : Fin 8) (l : Fin 200) (o : Fin 384) :
    gateHidRows (k0_pay3 v0) v48 v51 (ix2 (row g l) o)
      = Cell.gateHid (fun l k => v0 (ix3 g l k)) (fun o i => v48 (ix2 o i)) (fun o => v51 (ix2 0 o)) l o := by
  unfold gateHidRows Cell.gateHid
  rw [addf_apply, hidDot_apply, spread384_apply]
  refine congrArg (· + _) (Finset.sum_congr rfl fun i _ => ?_)
  rw [truncf_apply, pay3_apply]

/-! ## The pointwise blend -/

/-- The body's last stage: three column runs of each gate layer, the two logistic gates, the candidate, the blend with the
    old state, cut back into graphs. -/
def blendRows (v5 : FVec Ideal S1600x128 .f32) (gi gh : FVec Ideal S1600x384 .f32) : FVec Ideal S8x200x128 .f32 :=
  shapeCast S8x200x128
    (addf
      (tanh (addf (extractStridedSlice S1600x128 ![0, 256] gi slices_S1600x384_o0_256_S1600x128)
        (mulf (logistic (addf (extractStridedSlice S1600x128 ![0, 0] gi slices_S1600x384_o0_0_S1600x128) (extractStridedSlice S1600x128 ![0, 0] gh slices_S1600x384_o0_0_S1600x128)))
          (extractStridedSlice S1600x128 ![0, 256] gh slices_S1600x384_o0_256_S1600x128))))
      (mulf (logistic (addf (extractStridedSlice S1600x128 ![0, 128] gi slices_S1600x384_o0_128_S1600x128) (extractStridedSlice S1600x128 ![0, 128] gh slices_S1600x384_o0_128_S1600x128)))
        (subf v5
          (tanh (addf (extractStridedSlice S1600x128 ![0, 256] gi slices_S1600x384_o0_256_S1600x128)
            (mulf (logistic (addf (extractStridedSlice S1600x128 ![0, 0] gi slices_S1600x384_o0_0_S1600x128) (extractStridedSlice S1600x128 ![0, 0] gh slices_S1600x384_o0_0_S1600x128)))
              (extractStridedSlice S1600x128 ![0, 256] gh slices_S1600x384_o0_256_S1600x128)))))))
    shapeCasts_S1600x128_S8x200x128

theorem pay1_eq (v5 : FVec Ideal S1600x128 .f32) (v6 : FVec Ideal S1600x128 .bf16) (v33 v34 : FVec Ideal S1600x128 .f32)
    (v35 : Vec Ideal S1x128 .f32) (v41 : Vec Ideal S384x256 .f32) (v44 : Vec Ideal S1x384 .f32) (v48 : Vec Ideal S384x128 .f32) (v51 : Vec Ideal S1x384 .f32) :
    k0_pay1 v5 v6 v33 v34 v35 v41 v44 v48 v51 = blendRows v5 (gateInRows v33 v34 v35 v41 v44) (gateHidRows v6 v48 v51) := rfl

/-- A run of 128 columns starting at `o`, read at row `r`, column `j`. -/
theorem run_apply (o : Nat) (x : FVec Ideal S1600x384 .f32) (h : S1600x384.Slices ![0, o] S1600x128) (r : Fin 1600) (j : Fin 128) (k : Fin 384)
    (hk : k.val = o + j.val) : extractStridedSlice S1600x128 ![0, o] x h (ix2 r j) = x (ix2 r k) :=
  slice2_axis1_apply o x h r j k hk

theorem blendRows_apply (v5 : FVec Ideal S1600x128 .f32) (gi gh : FVec Ideal S1600x384 .f32) (g : Fin 8) (l : Fin 200) (j : Fin 128) :
    blendRows v5 gi gh (ix3 g l j)
      = Ideal.tanh (gi (ix2 (row g l) (Cell.hi j))
            + Ideal.logistic (gi (ix2 (row g l) (Cell.lo j)) + gh (ix2 (row g l) (Cell.lo j))) * gh (ix2 (row g l) (Cell.hi j)))
          + Ideal.logistic (gi (ix2 (row g l) (Cell.mid j)) + gh (ix2 (row g l) (Cell.mid j)))
            * (v5 (ix2 (row g l) j)
                - Ideal.tanh (gi (ix2 (row g l) (Cell.hi j))
                    + Ideal.logistic (gi (ix2 (row g l) (Cell.lo j)) + gh (ix2 (row g l) (Cell.lo j))) * gh (ix2 (row g l) (Cell.hi j)))) := by
  unfold blendRows
  refine (unflat_apply _ _ g l j).trans ?_
  simp only [addf_apply, mulf_apply, subf_apply, tanh, logistic, Ideal.tanh_def, Ideal.logistic_def]
  rw [run_apply 256 gi _ (row g l) j (Cell.hi j) rfl, run_apply 256 gh _ (row g l) j (Cell.hi j) rfl,
    run_apply 0 gi _ (row g l) j (Cell.lo j) (Nat.zero_add _).symm, run_apply 0 gh _ (row g l) j (Cell.lo j) (Nat.zero_add _).symm,
    run_apply 128 gi _ (row g l) j (Cell.mid j) rfl, run_apply 128 gh _ (row g l) j (Cell.mid j) rfl]

/-! ## The stored block, entry by entry -/

/-- Entry `(g, l, j)` of what the body stores is the update of graph `g` of the tile at node `l`, coordinate `j`, computed
    from graph `g`'s slices of the state block and the two adjacency blocks and from the weights. -/
theorem body_apply (x0 x1 : Vec Ideal S8x200x200 .f32) (x2 : Vec Ideal S8x200x128 .f32) (x3 : Vec Ideal S384x256 .f32) (x4 : Vec Ideal S384x128 .f32)
    (x5 x6 : Vec Ideal S1x384 .f32) (x7 x8 : Vec Ideal S1x128 .f32) (x9 : Vec Ideal S128x128 .f32) (x10 : Vec Ideal S1x128 .f32)
    (x11 : Vec Ideal S128x128 .f32) (x12 : Vec Ideal S1x128 .f32) (g : Fin 8) (l : Fin 200) (j : Fin 128) :
    k0_pay1 (k0_pay2 x2) (k0_pay3 x2) (k0_pay4 x2 x0 x9 x10 x7) (k0_pay5 x2 x1 x11 x12) x8 x3 x5 x4 x6 (ix3 g l j)
      = Cell.cell (fun l k => x2 (ix3 g l k)) (fun l m => x0 (ix3 g l m)) (fun l m => x1 (ix3 g l m))
          (fun o c => x3 (ix2 o c)) (fun o i => x4 (ix2 o i)) (fun o => x5 (ix2 0 o)) (fun o => x6 (ix2 0 o))
          (fun k => x7 (ix2 0 k)) (fun k => x8 (ix2 0 k)) (fun k i => x9 (ix2 k i)) (fun k => x10 (ix2 0 k))
          (fun k i => x11 (ix2 k i)) (fun k => x12 (ix2 0 k)) l j := by
  rw [pay1_eq, blendRows_apply]
  simp only [gateInRows_apply, gateHidRows_apply, pay2_apply]
  rfl

end Cert.KernelIdeal.Tile

end
-- ==== Proof.KerArray.lean ====
/-
  From tiles to the whole array: after the run the result array holds, at graph `b`, node `l`, coordinate `j`, the gated
  update of graph `b` computed from the argument arrays.

  The grid has 128 points; point `t` works on graphs `8t … 8t + 7`. Its state block and its two adjacency blocks are those
  graphs' slices of the state array and of the two halves of the adjacency array (which the program cuts out of the one
  adjacency argument before the region), the weights are staged whole, and each bias is staged as a one-row matrix the
  program reshapes the bias vector to. So entry `(g, l, j)` of what point `t` stores — the update of graph `g` of the tile
  (the payload module) — is the update of graph `8t + g` of the batch. Each point writes its block back, the blocks are the
  128 runs of 8 graphs, and graph `b` lies in the block of point `b / 8`: the blocks cover the array.
-/
import proofs.«160301_j24060406792471_2_alg».proof.Proof.Gen.KernelIdeal.Value
import proofs.«160301_j24060406792471_2_alg».proof.Proof.KerCell
import Idealize.ShloMosaic.Lib.StableHlo.Run
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result array as one function of the argument arrays as launched. -/
def G (c : Dev nD) : S1024x200x128.Idx → EReal :=
  Cert.Cell.batchArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Graph `g` of the tile of point `t`, among the 1024 graphs. -/
abbrev graphOf (t : Fin cfg0.N) (g : Fin 8) : Fin 1024 :=
  ⟨t.val * 8 + g.val, by have := t.isLt; have h : cfg0.N = 128 := N_0; omega⟩

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps, decided over the 128 points -/

theorem idx_tiled0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx_tiled1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem idx_tiled2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem idx_tiled13 : ∀ t : Fin cfg0.N, win0_13.index t (0 : Fin 3) = t.val ∧ win0_13.index t (1 : Fin 3) = 0 ∧ win0_13.index t (2 : Fin 3) = 0 :=
  (by decide +kernel : ∀ t : Fin grid0.N, win0_13.index t (0 : Fin 3) = t.val ∧ win0_13.index t (1 : Fin 3) = 0 ∧ win0_13.index t (2 : Fin 3) = 0)
theorem idx_fixed3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_fixed4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_fixed5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_fixed6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_fixed7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_fixed8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_fixed9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_fixed10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_fixed11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx_fixed12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-! ## What the region finds in the arrays the program computes before it -/

/-- The first 200 columns of the adjacency argument. -/
theorem V_main_v0 (c : Dev nD) : (V m c main_v0 : S1024x200x200.Idx → EReal)
    = extractStridedSlice S1024x200x200 ![0, 0, 0] (m ((c : Thread nD τ).loc main_arg0)) slices_S1024x200x400_S1024x200x200_0_0_0 := by
  dsimp only [Gen.V, Gen.hostOps0]
  after_results

/-- Its last 200 columns. -/
theorem V_main_v1 (c : Dev nD) : (V m c main_v1 : S1024x200x200.Idx → EReal)
    = extractStridedSlice S1024x200x200 ![0, 0, 200] (m ((c : Thread nD τ).loc main_arg0)) slices_S1024x200x400_S1024x200x200_0_0_200 := by
  dsimp only [Gen.V, Gen.hostOps0]
  after_results

/-- Each bias vector as a one-row matrix. -/
theorem V_main_v2 (c : Dev nD) : (V m c main_v2 : S1x384.Idx → EReal)
    = shapeCast S1x384 (m ((c : Thread nD τ).loc main_arg4)) shapeCasts_S384_S1x384 := by
  dsimp only [Gen.V, Gen.hostOps0]
  after_results
  rfl
theorem V_main_v3 (c : Dev nD) : (V m c main_v3 : S1x384.Idx → EReal)
    = shapeCast S1x384 (m ((c : Thread nD τ).loc main_arg5)) shapeCasts_S384_S1x384 := by
  dsimp only [Gen.V, Gen.hostOps0]
  after_results
  rfl
theorem V_main_v4 (c : Dev nD) : (V m c main_v4 : S1x128.Idx → EReal)
    = shapeCast S1x128 (m ((c : Thread nD τ).loc main_arg6)) shapeCasts_S128_S1x128 := by
  dsimp only [Gen.V, Gen.hostOps0]
  after_results
  rfl
theorem V_main_v5 (c : Dev nD) : (V m c main_v5 : S1x128.Idx → EReal)
    = shapeCast S1x128 (m ((c : Thread nD τ).loc main_arg7)) shapeCasts_S128_S1x128 := by
  dsimp only [Gen.V, Gen.hostOps0]
  after_results
  rfl
theorem V_main_v6 (c : Dev nD) : (V m c main_v6 : S1x128.Idx → EReal)
    = shapeCast S1x128 (m ((c : Thread nD τ).loc main_arg9)) shapeCasts_S128_S1x128 := by
  dsimp only [Gen.V, Gen.hostOps0]
  after_results
  rfl
theorem V_main_v7 (c : Dev nD) : (V m c main_v7 : S1x128.Idx → EReal)
    = shapeCast S1x128 (m ((c : Thread nD τ).loc main_arg11)) shapeCasts_S128_S1x128 := by
  dsimp only [Gen.V, Gen.hostOps0]
  after_results
  rfl

/-! ## The blocks of point `t`, read at an index -/

/-- The state block: graphs `8t … 8t + 7` of the state array. -/
theorem blkState (c : Dev nD) (t : Fin cfg0.N) (g : Fin 8) (l : Fin 200) (k : Fin 128) :
    (iblk m c 2 t : Vec Ideal S8x200x128 .f32) (ix3 g l k)
      = (m ((c : Thread nD τ).loc main_arg1) : S1024x200x128.Idx → EReal) (ix3 (graphOf t g) l k) := by
  obtain ⟨e0, e1, e2⟩ := idx_tiled2 t
  unfold iblk
  rw [View.read_apply]
  show V m c main_arg1 _ = _
  rw [V_main_arg1]
  refine congrArg _ (funext fun a => Fin.ext ?_)
  match a with
  | ⟨0, _⟩ => show win0_2.index t (0 : Fin 3) * 8 + 1 * g.val = t.val * 8 + g.val; omega
  | ⟨1, _⟩ => show win0_2.index t (1 : Fin 3) * 200 + 1 * l.val = l.val; omega
  | ⟨2, _⟩ => show win0_2.index t (2 : Fin 3) * 128 + 1 * k.val = k.val; omega

/-- The incoming adjacency block: the same graphs, columns 0 … 199 of the adjacency argument. -/
theorem blkAdjIn (c : Dev nD) (t : Fin cfg0.N) (g : Fin 8) (l p : Fin 200) :
    (iblk m c 0 t : Vec Ideal S8x200x200 .f32) (ix3 g l p)
      = (m ((c : Thread nD τ).loc main_arg0) : S1024x200x400.Idx → EReal) (ix3 (graphOf t g) l (Cert.Cell.colIn p)) := by
  obtain ⟨e0, e1, e2⟩ := idx_tiled0 t
  unfold iblk
  rw [View.read_apply]
  show V m c main_v0 _ = _
  rw [V_main_v0]
  refine extractStridedSlice_apply ![0, 0, 0] _ _ _ (ix3 (graphOf t g) l (Cert.Cell.colIn p)) fun a => ?_
  match a with
  | ⟨0, _⟩ => show t.val * 8 + g.val = 0 + (win0_0.index t (0 : Fin 3) * 8 + 1 * g.val); omega
  | ⟨1, _⟩ => show l.val = 0 + (win0_0.index t (1 : Fin 3) * 200 + 1 * l.val); omega
  | ⟨2, _⟩ => show p.val = 0 + (win0_0.index t (2 : Fin 3) * 200 + 1 * p.val); omega

/-- The outgoing adjacency block: columns 200 … 399. -/
theorem blkAdjOut (c : Dev nD) (t : Fin cfg0.N) (g : Fin 8) (l p : Fin 200) :
    (iblk m c 1 t : Vec Ideal S8x200x200 .f32) (ix3 g l p)
      = (m ((c : Thread nD τ).loc main_arg0) : S1024x200x400.Idx → EReal) (ix3 (graphOf t g) l (Cert.Cell.colOut p)) := by
  obtain ⟨e0, e1, e2⟩ := idx_tiled1 t
  unfold iblk
  rw [View.read_apply]
  show V m c main_v1 _ = _
  rw [V_main_v1]
  refine extractStridedSlice_apply ![0, 0, 200] _ _ _ (ix3 (graphOf t g) l (Cert.Cell.colOut p)) fun a => ?_
  match a with
  | ⟨0, _⟩ => show t.val * 8 + g.val = 0 + (win0_1.index t (0 : Fin 3) * 8 + 1 * g.val); omega
  | ⟨1, _⟩ => show l.val = 0 + (win0_1.index t (1 : Fin 3) * 200 + 1 * l.val); omega
  | ⟨2, _⟩ => show 200 + p.val = 200 + (win0_1.index t (2 : Fin 3) * 200 + 1 * p.val); omega

/-- The input-side gate weights, staged whole. -/
theorem blkWih (c : Dev nD) (t : Fin cfg0.N) (p : Fin 384) (q : Fin 256) :
    (iblk m c 3 t : Vec Ideal S384x256 .f32) (ix2 p q) = (m ((c : Thread nD τ).loc main_arg2) : S384x256.Idx → EReal) (ix2 p q) := by
  obtain ⟨e0, e1⟩ := idx_fixed3 t
  unfold iblk
  rw [View.read_apply]
  show V m c main_arg2 _ = _
  rw [V_main_arg2]
  refine congrArg _ (funext fun a => Fin.ext ?_)
  match a with
  | ⟨0, _⟩ => show win0_3.index t (0 : Fin 2) * 384 + 1 * p.val = p.val; omega
  | ⟨1, _⟩ => show win0_3.index t (1 : Fin 2) * 256 + 1 * q.val = q.val; omega

/-- The state-side gate weights, staged whole. -/
theorem blkWhh (c : Dev nD) (t : Fin cfg0.N) (p : Fin 384) (q : Fin 128) :
    (iblk m c 4 t : Vec Ideal S384x128 .f32) (ix2 p q) = (m ((c : Thread nD τ).loc main_arg3) : S384x128.Idx → EReal) (ix2 p q) := by
  obtain ⟨e0, e1⟩ := idx_fixed4 t
  unfold iblk
  rw [View.read_apply]
  show V m c main_arg3 _ = _
  rw [V_main_arg3]
  refine congrArg _ (funext fun a => Fin.ext ?_)
  match a with
  | ⟨0, _⟩ => show win0_4.index t (0 : Fin 2) * 384 + 1 * p.val = p.val; omega
  | ⟨1, _⟩ => show win0_4.index t (1 : Fin 2) * 128 + 1 * q.val = q.val; omega

/-- The incoming edge-feature weights, staged whole. -/
theorem blkWein (c : Dev nD) (t : Fin cfg0.N) (p : Fin 128) (q : Fin 128) :
    (iblk m c 9 t : Vec Ideal S128x128 .f32) (ix2 p q) = (m ((c : Thread nD τ).loc main_arg8) : S128x128.Idx → EReal) (ix2 p q) := by
  obtain ⟨e0, e1⟩ := idx_fixed9 t
  unfold iblk
  rw [View.read_apply]
  show V m c main_arg8 _ = _
  rw [V_main_arg8]
  refine congrArg _ (funext fun a => Fin.ext ?_)
  match a with
  | ⟨0, _⟩ => show win0_9.index t (0 : Fin 2) * 128 + 1 * p.val = p.val; omega
  | ⟨1, _⟩ => show win0_9.index t (1 : Fin 2) * 128 + 1 * q.val = q.val; omega

/-- The outgoing edge-feature weights, staged whole. -/
theorem blkWeout (c : Dev nD) (t : Fin cfg0.N) (p : Fin 128) (q : Fin 128) :
    (iblk m c 11 t : Vec Ideal S128x128 .f32) (ix2 p q) = (m ((c : Thread nD τ).loc main_arg10) : S128x128.Idx → EReal) (ix2 p q) := by
  obtain ⟨e0, e1⟩ := idx_fixed11 t
  unfold iblk
  rw [View.read_apply]
  show V m c main_arg10 _ = _
  rw [V_main_arg10]
  refine congrArg _ (funext fun a => Fin.ext ?_)
  match a with
  | ⟨0, _⟩ => show win0_11.index t (0 : Fin 2) * 128 + 1 * p.val = p.val; omega
  | ⟨1, _⟩ => show win0_11.index t (1 : Fin 2) * 128 + 1 * q.val = q.val; omega

/-- The input-side gate bias, as the one row of its reshaped copy. -/
theorem blkBih (c : Dev nD) (t : Fin cfg0.N) (q : Fin 384) :
    (iblk m c 5 t : Vec Ideal S1x384 .f32) (ix2 0 q) = (m ((c : Thread nD τ).loc main_arg4) : S384.Idx → EReal) (ix1 q) := by
  obtain ⟨e0, e1⟩ := idx_fixed5 t
  unfold iblk
  rw [View.read_apply]
  show V m c main_v2 _ = _
  rw [V_main_v2]
  refine shapeCast_apply _ _ _ (ix1 q) ?_
  rw [Shape.rowMajor_val_one, Shape.rowMajor_val_two]
  show q.val = (win0_5.index t (0 : Fin 2) * 1 + 1 * 0) * 384 + (win0_5.index t (1 : Fin 2) * 384 + 1 * q.val)
  omega

/-- The state-side gate bias. -/
theorem blkBhh (c : Dev nD) (t : Fin cfg0.N) (q : Fin 384) :
    (iblk m c 6 t : Vec Ideal S1x384 .f32) (ix2 0 q) = (m ((c : Thread nD τ).loc main_arg5) : S384.Idx → EReal) (ix1 q) := by
  obtain ⟨e0, e1⟩ := idx_fixed6 t
  unfold iblk
  rw [View.read_apply]
  show V m c main_v3 _ = _
  rw [V_main_v3]
  refine shapeCast_apply _ _ _ (ix1 q) ?_
  rw [Shape.rowMajor_val_one, Shape.rowMajor_val_two]
  show q.val = (win0_6.index t (0 : Fin 2) * 1 + 1 * 0) * 384 + (win0_6.index t (1 : Fin 2) * 384 + 1 * q.val)
  omega

/-- The incoming message's bias. -/
theorem blkBiah (c : Dev nD) (t : Fin cfg0.N) (q : Fin 128) :
    (iblk m c 7 t : Vec Ideal S1x128 .f32) (ix2 0 q) = (m ((c : Thread nD τ).loc main_arg6) : S128.Idx → EReal) (ix1 q) := by
  obtain ⟨e0, e1⟩ := idx_fixed7 t
  unfold iblk
  rw [View.read_apply]
  show V m c main_v4 _ = _
  rw [V_main_v4]
  refine shapeCast_apply _ _ _ (ix1 q) ?_
  rw [Shape.rowMajor_val_one, Shape.rowMajor_val_two]
  show q.val = (win0_7.index t (0 : Fin 2) * 1 + 1 * 0) * 128 + (win0_7.index t (1 : Fin 2) * 128 + 1 * q.val)
  omega

/-- The outgoing message's bias. -/
theorem blkBoah (c : Dev nD) (t : Fin cfg0.N) (q : Fin 128) :
    (iblk m c 8 t : Vec Ideal S1x128 .f32) (ix2 0 q) = (m ((c : Thread nD τ).loc main_arg7) : S128.Idx → EReal) (ix1 q) := by
  obtain ⟨e0, e1⟩ := idx_fixed8 t
  unfold iblk
  rw [View.read_apply]
  show V m c main_v5 _ = _
  rw [V_main_v5]
  refine shapeCast_apply _ _ _ (ix1 q) ?_
  rw [Shape.rowMajor_val_one, Shape.rowMajor_val_two]
  show q.val = (win0_8.index t (0 : Fin 2) * 1 + 1 * 0) * 128 + (win0_8.index t (1 : Fin 2) * 128 + 1 * q.val)
  omega

/-- The incoming edge features' bias. -/
theorem blkBein (c : Dev nD) (t : Fin cfg0.N) (q : Fin 128) :
    (iblk m c 10 t : Vec Ideal S1x128 .f32) (ix2 0 q) = (m ((c : Thread nD τ).loc main_arg9) : S128.Idx → EReal) (ix1 q) := by
  obtain ⟨e0, e1⟩ := idx_fixed10 t
  unfold iblk
  rw [View.read_apply]
  show V m c main_v6 _ = _
  rw [V_main_v6]
  refine shapeCast_apply _ _ _ (ix1 q) ?_
  rw [Shape.rowMajor_val_one, Shape.rowMajor_val_two]
  show q.val = (win0_10.index t (0 : Fin 2) * 1 + 1 * 0) * 128 + (win0_10.index t (1 : Fin 2) * 128 + 1 * q.val)
  omega

/-- The outgoing edge features' bias. -/
theorem blkBeout (c : Dev nD) (t : Fin cfg0.N) (q : Fin 128) :
    (iblk m c 12 t : Vec Ideal S1x128 .f32) (ix2 0 q) = (m ((c : Thread nD τ).loc main_arg11) : S128.Idx → EReal) (ix1 q) := by
  obtain ⟨e0, e1⟩ := idx_fixed12 t
  unfold iblk
  rw [View.read_apply]
  show V m c main_v7 _ = _
  rw [V_main_v7]
  refine shapeCast_apply _ _ _ (ix1 q) ?_
  rw [Shape.rowMajor_val_one, Shape.rowMajor_val_two]
  show q.val = (win0_12.index t (0 : Fin 2) * 1 + 1 * 0) * 128 + (win0_12.index t (1 : Fin 2) * 128 + 1 * q.val)
  omega

/-! ## What point `t` writes back -/

/-- Point `t` writes back block `t` of `G`: entry `(g, l, j)` of the stored block is the update of graph `g` of the tile from
    the tile's blocks, and those are graph `8t + g`'s slices of the arguments. -/
theorem flushed_eq (c : Dev nD) (t : Fin cfg0.N) :
    (dats m 0 c).flushed 13 t = ((cfg0.win 13).blk t).view.read (Elt Ideal) (G m c) := by
  rw [Cert.KernelIdeal.Value.flushed13]
  unfold out0_13
  rw [View.canon_unit_zero hz3]
  simp only [View.ld_unit_zero (S := S8x200x128) hz3, View.ld_unit_zero (S := S8x200x200) hz3, View.ld_unit_zero (S := S128x128) hz2,
    View.ld_unit_zero (S := S1x128) hz2, View.ld_unit_zero (S := S384x256) hz2, View.ld_unit_zero (S := S1x384) hz2, View.ld_unit_zero (S := S384x128) hz2]
  funext y
  obtain ⟨g, l, j, rfl⟩ : ∃ (g : Fin 8) (l : Fin 200) (j : Fin 128), y = ix3 g l j := ⟨y 0, y 1, y 2, eq_ix3 y⟩
  refine (Tile.body_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) g l j).trans ?_
  rw [View.read_apply]
  show _ = G m c (((cfg0.win 13).blk t).view.emb (ix3 g l j))
  obtain ⟨e0, e1, e2⟩ := idx_tiled13 t
  have he : ((cfg0.win 13).blk t).view.emb (ix3 g l j) = ix3 (graphOf t g) l j := funext fun a => Fin.ext (by
    match a with
    | ⟨0, _⟩ => show win0_13.index t (0 : Fin 3) * 8 + 1 * g.val = t.val * 8 + g.val; omega
    | ⟨1, _⟩ => show win0_13.index t (1 : Fin 3) * 200 + 1 * l.val = l.val; omega
    | ⟨2, _⟩ => show win0_13.index t (2 : Fin 3) * 128 + 1 * j.val = j.val; omega)
  rw [he]
  unfold G
  rw [Cert.Cell.batchArr_ix3]
  unfold Cert.Cell.batch
  simp only [blkState m c t, blkAdjIn m c t, blkAdjOut m c t, blkWih m c t, blkWhh m c t, blkWein m c t, blkWeout m c t,
    blkBih m c t, blkBhh m c t, blkBiah m c t, blkBoah m c t, blkBein m c t, blkBeout m c t]

/-! ## The blocks cover the array -/

/-- An index of the result array is in point `t`'s block iff each coordinate is in the block's range on its axis. -/
theorem mem_blk (t : Fin cfg0.N) (i : S1024x200x128.Idx) :
    i ∈ ((cfg0.win 13).blk t).view.set ↔ ∀ a : Fin 3, win0_13.index t a * S8x200x128.size a ≤ (i a).val ∧ (i a).val < win0_13.index t a * S8x200x128.size a + S8x200x128.size a := by
  show i ∈ ((View.whole main_v8).slice (win0_13.rect t)).set ↔ _
  rw [View.set_slice_whole, Rect.mem_set_unit]
  exact Iff.rfl

/-- Graph `b` lies in the block of point `b / 8`. -/
theorem cover (i : S1024x200x128.Idx) : ∃ t : Fin cfg0.N, (cfg0.win 13).flush t = true ∧ i ∈ ((cfg0.win 13).blk t).view.set := by
  have hN : cfg0.N = 128 := N_0
  have h0 : (i 0).val < 1024 := (i 0).isLt
  have h1 : (i 1).val < 200 := (i 1).isLt
  have h2 : (i 2).val < 128 := (i 2).isLt
  refine ⟨⟨(i 0).val / 8, by omega⟩, flush0_13 _, ?_⟩
  rw [mem_blk]
  obtain ⟨e0, e1, e2⟩ := idx_tiled13 ⟨(i 0).val / 8, by omega⟩
  intro a
  match a with
  | ⟨0, _⟩ =>
    show win0_13.index ⟨(i 0).val / 8, _⟩ (0 : Fin 3) * 8 ≤ (i 0).val ∧ (i 0).val < win0_13.index ⟨(i 0).val / 8, _⟩ (0 : Fin 3) * 8 + 8
    rw [e0]; show (i 0).val / 8 * 8 ≤ (i 0).val ∧ (i 0).val < (i 0).val / 8 * 8 + 8; omega
  | ⟨1, _⟩ =>
    show win0_13.index ⟨(i 0).val / 8, _⟩ (1 : Fin 3) * 200 ≤ (i 1).val ∧ (i 1).val < win0_13.index ⟨(i 0).val / 8, _⟩ (1 : Fin 3) * 200 + 200
    rw [e1]; omega
  | ⟨2, _⟩ =>
    show win0_13.index ⟨(i 0).val / 8, _⟩ (2 : Fin 3) * 128 ≤ (i 2).val ∧ (i 2).val < win0_13.index ⟨(i 0).val / 8, _⟩ (2 : Fin 3) * 128 + 128
    rw [e2]; omega

/-- So the result array ends holding `G`. -/
theorem final (c : Dev nD) : (dats m 0 c).arrAt 13 cfg0.N = G m c :=
  (dats m 0 c).arrAt_eq_of_cover 13 (G m c) (fun t _ => flushed_eq m c t) cover

/-! ## The run, read -/

/-- Every execution of the program ends with the result array at `G` of the arguments as launched, the arguments unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.KernelIdeal.Whole

end
-- ==== Proof.lean ====
/-
  A gated recurrent update of graph node states, computed tile by tile, against its plain array formulation.

  The program under proof updates the node states of 1024 graphs, eight graphs per grid point: for each graph, two dense
  layers of the states (the edge features), the two adjacency products, a gated recurrent unit fed the two messages side
  by side. The reference computes the same update on whole arrays with contractions over the same axes. On the extended
  reals a change of float format is the identity and a matrix product into a zero accumulator is a plain sum, so both are
  the one function `Cell.batchArr` of the argument arrays: for the reference stage by stage (`RefCell`), for the tiled
  program entry by entry of a tile (`KerCell`), then block by block of the result array (`KerArray`). The two differ only
  in how the 1024 × 200 rows are grouped; no algebraic law beyond re-indexing joins them, and the precondition is not used.
  The tiled program's idealization rewrote no operation, so the statement that relates it to the program as printed is
  trivial; the three frames are the generated ones (the reference's is its generated run with the result dropped).
-/
import proofs.«160301_j24060406792471_2_alg».proof.Defs
import proofs.«160301_j24060406792471_2_alg».proof.Proof.Gen.Kernel
import proofs.«160301_j24060406792471_2_alg».proof.Proof.Gen.Kernel.Skeleton
import proofs.«160301_j24060406792471_2_alg».proof.Proof.Gen.Kernel.Launch
import proofs.«160301_j24060406792471_2_alg».proof.Proof.Gen.Kernel.Points
import proofs.«160301_j24060406792471_2_alg».proof.Proof.Gen.Kernel.Frame
import proofs.«160301_j24060406792471_2_alg».proof.Proof.Gen.KernelIdeal
import proofs.«160301_j24060406792471_2_alg».proof.Proof.Gen.KernelIdeal.Skeleton
import proofs.«160301_j24060406792471_2_alg».proof.Proof.Gen.KernelIdeal.Launch
import proofs.«160301_j24060406792471_2_alg».proof.Proof.Gen.KernelIdeal.Points
import proofs.«160301_j24060406792471_2_alg».proof.Proof.Gen.KernelIdeal.Frame
import proofs.«160301_j24060406792471_2_alg».proof.Proof.Gen.ReferenceIdeal
import proofs.«160301_j24060406792471_2_alg».proof.Proof.Gen.Pre_finite_inputs
import proofs.«160301_j24060406792471_2_alg».proof.Proof.Gen.KernelIdeal.Value
import proofs.«160301_j24060406792471_2_alg».proof.Proof.Gen.ReferenceIdeal.Run
import proofs.«160301_j24060406792471_2_alg».proof.Proof.Gen.ReferenceIdeal.Read
import proofs.«160301_j24060406792471_2_alg».proof.Proof.Cell
import proofs.«160301_j24060406792471_2_alg».proof.Proof.RefCell
import proofs.«160301_j24060406792471_2_alg».proof.Proof.KerOps
import proofs.«160301_j24060406792471_2_alg».proof.Proof.KerCell
import proofs.«160301_j24060406792471_2_alg».proof.Proof.KerArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the twelve arguments, the tiled program's result array and the reference's result are the
    same function of the arguments: `Cell.batchArr`. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v52_eq, Cert.ReferenceIdeal.RefValue.result_eq, a0, a1, a2, a3, a4, a5, a6, a7, a8, a9, a10, a11]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
